-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096 : Shape := ⟨2, ![1, 4096]⟩
abbrev S8192x4096 : Shape := ⟨2, ![8192, 4096]⟩
abbrev S4096 : Shape := ⟨1, ![4096]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S4096 : S_.BroadcastsInDim S4096 (![] : Fin 0 → Fin S4096.rank)
  reducesTo_S4096_S_d0 : S4096.ReducesTo [0] S_

variable [Facts]

def fn_part3 {F : FTy → Type} [FloatOps F] (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  main_v53

def fn_part2 {F : FTy → Type} [FloatOps F] (main_arg7 : FVec F S8192x4096 .f32) (main_arg8 : FVec F S4096 .f32) (main_arg9 : FVec F S8192x4096 .f32) (main_arg10 : FVec F S4096 .f32) (main_v33 : IVec S_ 1) : IVec S_ 1 :=
  let main_v34 : FVec F S8192x4096 .f32 := Host.absf main_arg7
  let main_cst_12 : FVec F S_ .f32 := constant S_ .f32 0x7F800000#32
  let main_v35 : FVec F S8192x4096 .f32 := broadcastInDim S8192x4096 ![] bcast_S_S8192x4096 main_cst_12
  let main_v36 : IVec S8192x4096 1 := cmpf .olt main_v34 main_v35
  let main_c_13 : IVec S_ 1 := constantI S_ 1 1#1
  let main_v37 : IVec S_ 1 := (fun x v => Host.reduce IntOp.andi x v reducesTo_S8192x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S8192x4096 .f32 := Host.absf main_arg9
  let main_cst_16 : FVec F S_ .f32 := constant S_ .f32 0x7F800000#32
  let main_v45 : FVec F S8192x4096 .f32 := broadcastInDim S8192x4096 ![] bcast_S_S8192x4096 main_cst_16
  let main_v46 : IVec S8192x4096 1 := cmpf .olt main_v44 main_v45
  let main_c_17 : IVec S_ 1 := constantI S_ 1 1#1
  let main_v47 : IVec S_ 1 := (fun x v => Host.reduce IntOp.andi x v reducesTo_S8192x4096_S_d0_1 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_v48 main_v49 main_v50

def fn_part1 {F : FTy → Type} [FloatOps F] (main_arg4 : FVec F S4096 .f32) (main_arg5 : FVec F S8192x4096 .f32) (main_arg6 : FVec F S4096 .f32) (main_arg7 : FVec F S8192x4096 .f32) (main_arg8 : FVec F S4096 .f32) (main_arg9 : FVec F S8192x4096 .f32) (main_arg10 : FVec F S4096 .f32) (main_v13 : IVec S_ 1) (main_v16 : IVec S8192x4096 1) : IVec S_ 1 :=
  let main_c_5 : IVec S_ 1 := constantI S_ 1 1#1
  let main_v17 : IVec S_ 1 := (fun x v => Host.reduce IntOp.andi x v reducesTo_S8192x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S8192x4096 .f32 := Host.absf main_arg5
  let main_cst_8 : FVec F S_ .f32 := constant S_ .f32 0x7F800000#32
  let main_v25 : FVec F S8192x4096 .f32 := broadcastInDim S8192x4096 ![] bcast_S_S8192x4096 main_cst_8
  let main_v26 : IVec S8192x4096 1 := cmpf .olt main_v24 main_v25
  let main_c_9 : IVec S_ 1 := constantI S_ 1 1#1
  let main_v27 : IVec S_ 1 := (fun x v => Host.reduce IntOp.andi x v reducesTo_S8192x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1x4096 .f32) (main_arg1 : FVec F S1x4096 .f32) (main_arg2 : FVec F S1x4096 .f32) (main_arg3 : FVec F S8192x4096 .f32) (main_arg4 : FVec F S4096 .f32) (main_arg5 : FVec F S8192x4096 .f32) (main_arg6 : FVec F S4096 .f32) (main_arg7 : FVec F S8192x4096 .f32) (main_arg8 : FVec F S4096 .f32) (main_arg9 : FVec F S8192x4096 .f32) (main_arg10 : FVec F S4096 .f32) : IVec S_ 1 :=
  let main_v0 : FVec F S1x4096 .f32 := Host.absf main_arg0
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S1x4096 .f32 := Host.absf main_arg1
  let main_cst_0 : FVec F S_ .f32 := constant S_ .f32 0x7F800000#32
  let main_v5 : FVec F S1x4096 .f32 := broadcastInDim S1x4096 ![] bcast_S_S1x4096 main_cst_0
  let main_v6 : IVec S1x4096 1 := cmpf .olt main_v4 main_v5
  let main_c_1 : IVec S_ 1 := constantI S_ 1 1#1
  let main_v7 : IVec S_ 1 := (fun x v => Host.reduce IntOp.andi x v reducesTo_S1x4096_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_v14 : FVec F S8192x4096 .f32 := Host.absf main_arg3
  let main_cst_4 : FVec F S_ .f32 := constant S_ .f32 0x7F800000#32
  let main_v15 : FVec F S8192x4096 .f32 := broadcastInDim S8192x4096 ![] bcast_S_S8192x4096 main_cst_4
  let main_v16 : IVec S8192x4096 1 := cmpf .olt main_v14 main_v15
  fn_part1 (F := F) main_arg4 main_arg5 main_arg6 main_arg7 main_arg8 main_arg9 main_arg10 main_v13 main_v16
-- ==== Kernel.lean ====
abbrev S1x4096 : Shape := ⟨2, ![1, 4096]⟩
abbrev S8192x4096 : Shape := ⟨2, ![8192, 4096]⟩
abbrev S4096 : Shape := ⟨1, ![4096]⟩
abbrev S1x8192 : Shape := ⟨2, ![1, 8192]⟩
abbrev S1x1024 : Shape := ⟨2, ![1, 1024]⟩
abbrev S1024x1024 : Shape := ⟨2, ![1024, 1024]⟩

abbrev nBuf : Space → Nat
  | .hbm => 18
  | .vmem => 26
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S8192x4096, .f32⟩
  | .hbm, ⟨4, _⟩ => ⟨S4096, .f32⟩
  | .hbm, ⟨5, _⟩ => ⟨S8192x4096, .f32⟩
  | .hbm, ⟨6, _⟩ => ⟨S4096, .f32⟩
  | .hbm, ⟨7, _⟩ => ⟨S8192x4096, .f32⟩
  | .hbm, ⟨8, _⟩ => ⟨S4096, .f32⟩
  | .hbm, ⟨9, _⟩ => ⟨S8192x4096, .f32⟩
  | .hbm, ⟨10, _⟩ => ⟨S4096, .f32⟩
  | .hbm, ⟨11, _⟩ => ⟨S1x8192, .f32⟩
  | .hbm, ⟨12, _⟩ => ⟨S1x8192, .bf16⟩
  | .hbm, ⟨13, _⟩ => ⟨S1x4096, .f32⟩
  | .hbm, ⟨14, _⟩ => ⟨S1x4096, .f32⟩
  | .hbm, ⟨15, _⟩ => ⟨S1x4096, .f32⟩
  | .hbm, ⟨16, _⟩ => ⟨S1x4096, .f32⟩
  | .hbm, ⟨17, _⟩ => ⟨S1x4096, .f32⟩
  | .local _ .vmem, ⟨0, _⟩ => ⟨S1x1024, .bf16⟩
  | .local _ .vmem, ⟨1, _⟩ => ⟨S1x1024, .bf16⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v37 : BitVec 1 := Scalar.cmpi .eq arg1 c7_i32
  let v38 : BitVec 32 := Scalar.extui v37
  let c0_i32_29 : BitVec 32 := 0#32
  let v39 : BitVec 1 := Scalar.cmpi .ne v38 c0_i32_29
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  concatenates_S1x4096_S1x4096_S1x8192_d1 : Shape.Concatenates [S1x4096, S1x4096] S1x8192 1
  bitsLt_bf16_f32 : FTy.bits .bf16 < FTy.bits .f32
  shapeCasts_S4096_S1x4096 : S4096.ShapeCasts S1x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  dot_S1x1024_S1024x1024_S1x1024_1_0_0_1_n_n_wf : DotDims.WF S1x1024 S1024x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x8192.size a
  hwx0_0 : ∀ i : grid0.Coords, EltTy.bits .bf16 = 32 ∨ (Rect.block (s := S1x8192) S1x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x4096.size a
  hwx0_1 : ∀ i : grid0.Coords, EltTy.bits .f32 = 32 ∨ (Rect.block (s := S1x4096) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x4096.size a
  hwx0_6 : ∀ i : grid0.Coords, EltTy.bits .f32 = 32 ∨ (Rect.block (s := S1x4096) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x4096.size a
  hwx0_7 : ∀ i : grid0.Coords, EltTy.bits .f32 = 32 ∨ (Rect.block (s := S1x4096) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x4096.size a
  hwx0_8 : ∀ i : grid0.Coords, EltTy.bits .f32 = 32 ∨ (Rect.block (s := S1x4096) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x4096.size a
  hwx0_9 : ∀ i : grid0.Coords, EltTy.bits .f32 = 32 ∨ (Rect.block (s := S1x4096) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x4096.size a
  hwx0_10 : ∀ i : grid0.Coords, EltTy.bits .f32 = 32 ∨ (Rect.block (s := S1x4096) S1x1024.size (cc0_transform_10 i) (hinb0_10 i)).WholeWords (EltTy.packing .f32)

variable [Facts₀]

def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf

abbrev win0_0 : Pipeline.Window sig grid0 :=
  Pipeline.Window.ofSpec (Memref.whole main_v1) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S1024x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x1024.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x1024.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S1x4096 : Shape := ⟨2, ![1, 4096]⟩
abbrev S8192x4096 : Shape := ⟨2, ![8192, 4096]⟩
abbrev S4096 : Shape := ⟨1, ![4096]⟩
abbrev S1x8192 : Shape := ⟨2, ![1, 8192]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S8192x4096, .f32⟩
  | .hbm, ⟨4, _⟩ => ⟨S4096, .f32⟩
  | .hbm, ⟨5, _⟩ => ⟨S8192x4096, .f32⟩
  | .hbm, ⟨6, _⟩ => ⟨S4096, .f32⟩
  | .hbm, ⟨7, _⟩ => ⟨S8192x4096, .f32⟩
  | .hbm, ⟨8, _⟩ => ⟨S4096, .f32⟩
  | .hbm, ⟨9, _⟩ => ⟨S8192x4096, .f32⟩
  | .hbm, ⟨10, _⟩ => ⟨S4096, .f32⟩
  | .hbm, ⟨11, _⟩ => ⟨S1x8192, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S1x4096, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S_, .f32⟩
  | .hbm, ⟨22, _⟩ => ⟨S1x4096, .f32⟩
  | .hbm, ⟨23, _⟩ => ⟨S1x4096, .f32⟩
  | .hbm, ⟨24, _⟩ => ⟨S_, .f32⟩
  | .hbm, ⟨25, _⟩ => ⟨S1x4096, .f32⟩
  | .hbm, ⟨26, _⟩ => ⟨S1x4096, .f32⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S1x4096, .f32⟩
  | .hbm, ⟨31, _⟩ => ⟨S1x4096, .f32⟩
  | .hbm, ⟨32, _⟩ => ⟨S_, .f32⟩
  | .hbm, ⟨33, _⟩ => ⟨S1x4096, .f32⟩
  | .hbm, ⟨34, _⟩ => ⟨S1x4096, .f32⟩
  | .hbm, ⟨35, _⟩ => ⟨S_, .f32⟩
  | .hbm, ⟨36, _⟩ => ⟨S1x4096, .f32⟩
  | .hbm, ⟨37, _⟩ => ⟨S1x4096, .f32⟩
  | .hbm, ⟨38, _⟩ => ⟨S1x4096, .f32⟩
  | .hbm, ⟨39, _⟩ => ⟨S1x4096, .f32⟩
  | .hbm, ⟨40, _⟩ => ⟨S1x4096, .f32⟩
  | .hbm, ⟨41, _⟩ => ⟨S1x4096, .f32⟩
  | .hbm, ⟨42, _⟩ => ⟨S1x4096, .f32⟩
  | .hbm, ⟨43, _⟩ => ⟨S_, .f32⟩
  | .hbm, ⟨44, _⟩ => ⟨S1x4096, .f32⟩
  | .hbm, ⟨45, _⟩ => ⟨S1x4096, .f32⟩
  | .hbm, ⟨46, _⟩ => ⟨S_, .f32⟩
  | .hbm, ⟨47, _⟩ => ⟨S1x4096, .f32⟩
  | .hbm, ⟨48, _⟩ => ⟨S1x4096, .f32⟩
  | .hbm, ⟨49, _⟩ => ⟨S1x4096, .f32⟩
  | .hbm, ⟨50, _⟩ => ⟨S1x4096, .f32⟩
  | .hbm, ⟨51, _⟩ => ⟨S1x4096, .f32⟩
  | .hbm, ⟨52, _⟩ => ⟨S1x4096, .f32⟩
  | .hbm, ⟨53, _⟩ => ⟨S1x4096, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]

class Facts₀ : Prop where
  concatenates_S1x4096_S1x4096_S1x8192_d1 : Shape.Concatenates [S1x4096, S1x4096] S1x8192 1
  bcast_S4096_S1x4096_1 : S4096.BroadcastsInDim S1x4096 (![1] : Fin 1 → Fin S1x4096.rank)
  bcast_S_S1x4096 : S_.BroadcastsInDim S1x4096 (![] : Fin 0 → Fin S1x4096.rank)
  dot_S1x8192_S8192x4096_S1x4096_1_0_0_1_n_n_wf : DotDims.WF S1x8192 S8192x4096 S1x4096 [1] [0] [0] [1] [] []

variable [Facts₀]

def dot_S1x8192_S8192x4096_S1x4096_1_0_0_1_n_n : DotDims S1x8192 S8192x4096 S1x4096 where
  lhsContracting := [1]
  rhsContracting := [0]
  lhsNonContracting := [0]
  rhsNonContracting := [1]
  lhsBatch := []
  rhsBatch := []
  wf := dot_S1x8192_S8192x4096_S1x4096_1_0_0_1_n_n_wf

class Facts : Prop extends Facts₀ where

variable [Facts]
-- ==== Proof.Pieces.lean ====
/-
  What one grid point leaves in the four running totals and in the output block, as values.

  The body keeps four running totals, one per gate, each a row of 1024 lanes. At a point it adds to each total the
  product of the point's 1024 inputs with the point's 1024 × 1024 weight block (`addBlock`: total + inputs · weights, the
  product accumulated from zero). At the first point of a lane block the totals are first set to zero, so that point
  leaves `0 + inputs · weights`; at the last point the body also writes the output block: the cell's nonlinearity
  applied to the totals it has just completed, the four bias blocks and the carried state's block.
-/
import proofs.«129651_j66554813218862_2_alg».proof.Proof.Gen.KernelIdeal.Frame
import Idealize.ShloMosaic.Lib.Pipeline.Value
import Idealize.ShloMosaic.Lib.Tactic

noncomputable section

namespace Cert.KernelIdeal.Points

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- One more block taken up by a running total: `total + inputs · weights`. -/
abbrev addBlock (x : Vec F S1x1024 .bf16) (a : Vec F S1x1024 .f32) (w : Vec F S1024x1024 .f32) : Vec F S1x1024 .f32 :=
  k0_pay8 x a w

/-- The zero row a total is reset to. -/
abbrev zeroRow : Vec F S1x1024 .f32 := k0_pay3 (F := F)

/-- The output block from the four completed totals, the four bias blocks and the state's block. -/
abbrev outBlock (af bf ai bi ag bg ao bo cs : Vec F S1x1024 .f32) : Vec F S1x1024 .f32 :=
  k0_pay2 af bf ai bi ag bg ao bo cs

/-- The four totals' updates are one function: the same operations on a different weight block. -/
theorem pay9_eq (x : Vec F S1x1024 .bf16) (a : Vec F S1x1024 .f32) (w : Vec F S1024x1024 .f32) : k0_pay9 x a w = addBlock x a w := rfl
theorem pay10_eq (x : Vec F S1x1024 .bf16) (a : Vec F S1x1024 .f32) (w : Vec F S1024x1024 .f32) : k0_pay10 x a w = addBlock x a w := rfl
theorem pay1_eq (x : Vec F S1x1024 .bf16) (a : Vec F S1x1024 .f32) (w : Vec F S1024x1024 .f32) : k0_pay1 (k0_pay7 x) a w = addBlock x a w := rfl
theorem pay4_eq : k0_pay4 (F := F) = zeroRow := rfl
theorem pay5_eq : k0_pay5 (F := F) = zeroRow := rfl
theorem pay6_eq : k0_pay6 (F := F) = zeroRow := rfl

/-- At a first point (the totals reset, then one block taken up) total 0 ends at `0 + inputs · weights`. -/
theorem first_total0 (c : Dev nD) (i : grid0.Coords) (arg2 : Memref sig .tc .vmem S1x1024 .bf16) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : cond0_0 i) (hc1 : ¬cond0_1 i) (x0 : Vec F S1x1024 .bf16) (x1 : Vec F S1x1024 .f32) (x2 x3 x4 x5 : Vec F S1024x1024 .f32) (x6 x7 x8 x9 : Vec F S1x1024 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = addBlock x0 zeroRow x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  unfold kernelRun0_A
  dsimp only
  sl_unfold_words
  rw [View.canon_cons_unit_zero (S := S1x1024) hz, View.readCov_unit_zero (S := S1x1024) _ hz]
  simp only [View.readAt_eq_ld, harg2.read_unread, harg4.read_unread, View.ld_unit_zero (S := S1x1024) hz, View.ld_unit_zero (S := S1024x1024) hz]
  try rfl

/-- At a middle point total 0 takes up one more block. -/
theorem middle_total0 (c : Dev nD) (i : grid0.Coords) (arg2 : Memref sig .tc .vmem S1x1024 .bf16) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : ¬cond0_0 i) (hc1 : ¬cond0_1 i) (x0 : Vec F S1x1024 .bf16) (x1 : Vec F S1x1024 .f32) (x2 x3 x4 x5 : Vec F S1024x1024 .f32) (x6 x7 x8 x9 : Vec F S1x1024 .f32) (xs0 xs1 xs2 xs3 : Vec F S1x1024 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = addBlock x0 xs0 x2 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_B
  dsimp only
  try sl_unfold_words
  rw [View.canon_unit_zero hz]
  simp only [View.readAt_eq_ld, harg2.read_unread, harg13.read_unread, harg4.read_unread, View.ld_unit_zero (S := S1x1024) hz, View.ld_unit_zero (S := S1024x1024) hz]
  try rfl

/-- At a last point total 0 takes up its last block. -/
theorem last_total0 (c : Dev nD) (i : grid0.Coords) (arg2 : Memref sig .tc .vmem S1x1024 .bf16) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : ¬cond0_0 i) (hc1 : cond0_1 i) (x0 : Vec F S1x1024 .bf16) (x1 : Vec F S1x1024 .f32) (x2 x3 x4 x5 : Vec F S1024x1024 .f32) (x6 x7 x8 x9 : Vec F S1x1024 .f32) (xs0 xs1 xs2 xs3 : Vec F S1x1024 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = addBlock x0 xs0 x2 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_C
  dsimp only
  try sl_unfold_words
  rw [View.canon_unit_zero hz]
  simp only [View.readAt_eq_ld, harg2.read_unread, harg13.read_unread, harg4.read_unread, View.ld_unit_zero (S := S1x1024) hz, View.ld_unit_zero (S := S1024x1024) hz]
  try rfl

/-- At a first point (the totals reset, then one block taken up) total 1 ends at `0 + inputs · weights`. -/
theorem first_total1 (c : Dev nD) (i : grid0.Coords) (arg2 : Memref sig .tc .vmem S1x1024 .bf16) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : cond0_0 i) (hc1 : ¬cond0_1 i) (x0 : Vec F S1x1024 .bf16) (x1 : Vec F S1x1024 .f32) (x2 x3 x4 x5 : Vec F S1024x1024 .f32) (x6 x7 x8 x9 : Vec F S1x1024 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = addBlock x0 zeroRow x3 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  unfold kernelRun0_A
  dsimp only
  sl_unfold_words
  rw [View.canon_cons_unit_zero (S := S1x1024) hz, View.readCov_unit_zero (S := S1x1024) _ hz]
  simp only [View.readAt_eq_ld, harg2.read_unread, harg5.read_unread, View.ld_unit_zero (S := S1x1024) hz, View.ld_unit_zero (S := S1024x1024) hz]
  try rfl

/-- At a middle point total 1 takes up one more block. -/
theorem middle_total1 (c : Dev nD) (i : grid0.Coords) (arg2 : Memref sig .tc .vmem S1x1024 .bf16) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : ¬cond0_0 i) (hc1 : ¬cond0_1 i) (x0 : Vec F S1x1024 .bf16) (x1 : Vec F S1x1024 .f32) (x2 x3 x4 x5 : Vec F S1024x1024 .f32) (x6 x7 x8 x9 : Vec F S1x1024 .f32) (xs0 xs1 xs2 xs3 : Vec F S1x1024 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = addBlock x0 xs1 x3 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_B
  dsimp only
  try sl_unfold_words
  rw [View.canon_unit_zero hz]
  simp only [View.readAt_eq_ld, harg2.read_unread, harg14.read_unread, harg5.read_unread, View.ld_unit_zero (S := S1x1024) hz, View.ld_unit_zero (S := S1024x1024) hz]
  try rfl

/-- At a last point total 1 takes up its last block. -/
theorem last_total1 (c : Dev nD) (i : grid0.Coords) (arg2 : Memref sig .tc .vmem S1x1024 .bf16) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : ¬cond0_0 i) (hc1 : cond0_1 i) (x0 : Vec F S1x1024 .bf16) (x1 : Vec F S1x1024 .f32) (x2 x3 x4 x5 : Vec F S1024x1024 .f32) (x6 x7 x8 x9 : Vec F S1x1024 .f32) (xs0 xs1 xs2 xs3 : Vec F S1x1024 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = addBlock x0 xs1 x3 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_C
  dsimp only
  try sl_unfold_words
  rw [View.canon_unit_zero hz]
  simp only [View.readAt_eq_ld, harg2.read_unread, harg14.read_unread, harg5.read_unread, View.ld_unit_zero (S := S1x1024) hz, View.ld_unit_zero (S := S1024x1024) hz]
  try rfl

/-- At a first point (the totals reset, then one block taken up) total 2 ends at `0 + inputs · weights`. -/
theorem first_total2 (c : Dev nD) (i : grid0.Coords) (arg2 : Memref sig .tc .vmem S1x1024 .bf16) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : cond0_0 i) (hc1 : ¬cond0_1 i) (x0 : Vec F S1x1024 .bf16) (x1 : Vec F S1x1024 .f32) (x2 x3 x4 x5 : Vec F S1024x1024 .f32) (x6 x7 x8 x9 : Vec F S1x1024 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = addBlock x0 zeroRow x4 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  unfold kernelRun0_A
  dsimp only
  sl_unfold_words
  rw [View.canon_cons_unit_zero (S := S1x1024) hz, View.readCov_unit_zero (S := S1x1024) _ hz]
  simp only [View.readAt_eq_ld, harg2.read_unread, harg6.read_unread, View.ld_unit_zero (S := S1x1024) hz, View.ld_unit_zero (S := S1024x1024) hz]
  try rfl

/-- At a middle point total 2 takes up one more block. -/
theorem middle_total2 (c : Dev nD) (i : grid0.Coords) (arg2 : Memref sig .tc .vmem S1x1024 .bf16) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : ¬cond0_0 i) (hc1 : ¬cond0_1 i) (x0 : Vec F S1x1024 .bf16) (x1 : Vec F S1x1024 .f32) (x2 x3 x4 x5 : Vec F S1024x1024 .f32) (x6 x7 x8 x9 : Vec F S1x1024 .f32) (xs0 xs1 xs2 xs3 : Vec F S1x1024 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = addBlock x0 xs2 x4 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_B
  dsimp only
  try sl_unfold_words
  rw [View.canon_unit_zero hz]
  simp only [View.readAt_eq_ld, harg2.read_unread, harg15.read_unread, harg6.read_unread, View.ld_unit_zero (S := S1x1024) hz, View.ld_unit_zero (S := S1024x1024) hz]
  try rfl

/-- At a last point total 2 takes up its last block. -/
theorem last_total2 (c : Dev nD) (i : grid0.Coords) (arg2 : Memref sig .tc .vmem S1x1024 .bf16) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : ¬cond0_0 i) (hc1 : cond0_1 i) (x0 : Vec F S1x1024 .bf16) (x1 : Vec F S1x1024 .f32) (x2 x3 x4 x5 : Vec F S1024x1024 .f32) (x6 x7 x8 x9 : Vec F S1x1024 .f32) (xs0 xs1 xs2 xs3 : Vec F S1x1024 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = addBlock x0 xs2 x4 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_C
  dsimp only
  try sl_unfold_words
  rw [View.canon_unit_zero hz]
  simp only [View.readAt_eq_ld, harg2.read_unread, harg15.read_unread, harg6.read_unread, View.ld_unit_zero (S := S1x1024) hz, View.ld_unit_zero (S := S1024x1024) hz]
  try rfl

/-- At a first point (the totals reset, then one block taken up) total 3 ends at `0 + inputs · weights`. -/
theorem first_total3 (c : Dev nD) (i : grid0.Coords) (arg2 : Memref sig .tc .vmem S1x1024 .bf16) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : cond0_0 i) (hc1 : ¬cond0_1 i) (x0 : Vec F S1x1024 .bf16) (x1 : Vec F S1x1024 .f32) (x2 x3 x4 x5 : Vec F S1024x1024 .f32) (x6 x7 x8 x9 : Vec F S1x1024 .f32) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = addBlock x0 zeroRow x5 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  unfold kernelRun0_A
  dsimp only
  sl_unfold_words
  rw [View.canon_cons_unit_zero (S := S1x1024) hz, View.readCov_unit_zero (S := S1x1024) _ hz]
  simp only [View.readAt_eq_ld, harg2.read_unread, harg7.read_unread, View.ld_unit_zero (S := S1x1024) hz, View.ld_unit_zero (S := S1024x1024) hz]
  try rfl

/-- At a middle point total 3 takes up one more block. -/
theorem middle_total3 (c : Dev nD) (i : grid0.Coords) (arg2 : Memref sig .tc .vmem S1x1024 .bf16) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : ¬cond0_0 i) (hc1 : ¬cond0_1 i) (x0 : Vec F S1x1024 .bf16) (x1 : Vec F S1x1024 .f32) (x2 x3 x4 x5 : Vec F S1024x1024 .f32) (x6 x7 x8 x9 : Vec F S1x1024 .f32) (xs0 xs1 xs2 xs3 : Vec F S1x1024 .f32) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = addBlock x0 xs3 x5 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_B
  dsimp only
  try sl_unfold_words
  rw [View.canon_unit_zero hz]
  simp only [View.readAt_eq_ld, harg2.read_unread, harg16.read_unread, harg7.read_unread, View.ld_unit_zero (S := S1x1024) hz, View.ld_unit_zero (S := S1024x1024) hz]
  try rfl

/-- At a last point total 3 takes up its last block. -/
theorem last_total3 (c : Dev nD) (i : grid0.Coords) (arg2 : Memref sig .tc .vmem S1x1024 .bf16) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : ¬cond0_0 i) (hc1 : cond0_1 i) (x0 : Vec F S1x1024 .bf16) (x1 : Vec F S1x1024 .f32) (x2 x3 x4 x5 : Vec F S1024x1024 .f32) (x6 x7 x8 x9 : Vec F S1x1024 .f32) (xs0 xs1 xs2 xs3 : Vec F S1x1024 .f32) :
    sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 = addBlock x0 xs3 x5 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_C
  dsimp only
  try sl_unfold_words
  rw [View.canon_unit_zero hz]
  simp only [View.readAt_eq_ld, harg2.read_unread, harg16.read_unread, harg7.read_unread, View.ld_unit_zero (S := S1x1024) hz, View.ld_unit_zero (S := S1024x1024) hz]
  try rfl

/-- At a last point the output block is written from the four totals just completed, the biases and the state. -/
theorem last_output (c : Dev nD) (i : grid0.Coords) (arg2 : Memref sig .tc .vmem S1x1024 .bf16) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (hc0 : ¬cond0_0 i) (hc1 : cond0_1 i) (x0 : Vec F S1x1024 .bf16) (x1 : Vec F S1x1024 .f32) (x2 x3 x4 x5 : Vec F S1024x1024 .f32) (x6 x7 x8 x9 : Vec F S1x1024 .f32) (xs0 xs1 xs2 xs3 : Vec F S1x1024 .f32) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3
      = outBlock (addBlock x0 xs0 x2) x6 (addBlock x0 xs1 x3) x7 (addBlock x0 xs2 x4) x8 (addBlock x0 xs3 x5) x9 x1 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3)]
  unfold kernelRun0_C
  dsimp only
  sl_unfold_words
  rw [View.canon_unit_zero hz]
  simp only [View.readCov_unit_zero (S := S1x1024) _ hz]
  simp only [View.readAt_eq_ld, harg2.read_unread, harg3.read_unread, harg4.read_unread, harg5.read_unread, harg6.read_unread,
    harg7.read_unread, harg8.read_unread, harg9.read_unread, harg10.read_unread, harg11.read_unread, harg13.read_unread,
    harg14.read_unread, harg15.read_unread, harg16.read_unread, View.ld_unit_zero (S := S1x1024) hz,
    View.ld_unit_zero (S := S1024x1024) hz]
  try rfl

end Cert.KernelIdeal.Points

end
-- ==== Proof.PayloadAt.lean ====
/-
  The body's two computations read at a lane, on the extended reals.

  `addBlock_apply`: lane `q` of `total + inputs · weights` is `total[q] + ∑ᵣ inputs[r] · weights[r, q]` over the block's
  1024 rows — the matrix product accumulated from zero is that plain sum, the change of float format of the weights
  is the identity. `outBlock_apply`: lane `q` of the output block is the cell's nonlinearity of lane `q` of its nine
  operands (every operation there is lane by lane).
-/
import proofs.«129651_j66554813218862_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.PayloadAt

open Idealize.ShloMosaic Idealize.ShloMosaic.TcCoe Idealize.SL.Sem Idealize.ShloMosaic.ValueIdx
open Cert.KernelIdeal Cert.KernelIdeal.Gen

theorem lhs_row (j : S1x1024.Idx) (q : dot_S1x1024_S1024x1024_S1x1024_1_0_0_1_n_n.contr.Idx) :
    (dot_S1x1024_S1024x1024_S1x1024_1_0_0_1_n_n.lhsIdx j q 0).val = (j 0).val := by
  unfold DotDims.lhsIdx
  rw [dif_neg (show ¬(0 : Fin S1x1024.rank) ∈ dot_S1x1024_S1024x1024_S1x1024_1_0_0_1_n_n.lhsBatch by decide),
    dif_pos (show (0 : Fin S1x1024.rank) ∈ dot_S1x1024_S1024x1024_S1x1024_1_0_0_1_n_n.lhsNonContracting by decide)]
  rfl

theorem rhs_col (j : S1x1024.Idx) (q : dot_S1x1024_S1024x1024_S1x1024_1_0_0_1_n_n.contr.Idx) :
    (dot_S1x1024_S1024x1024_S1x1024_1_0_0_1_n_n.rhsIdx j q 1).val = (j 1).val := by
  unfold DotDims.rhsIdx
  rw [dif_neg (show ¬(1 : Fin S1024x1024.rank) ∈ dot_S1x1024_S1024x1024_S1x1024_1_0_0_1_n_n.rhsBatch by decide),
    dif_pos (show (1 : Fin S1024x1024.rank) ∈ dot_S1x1024_S1024x1024_S1x1024_1_0_0_1_n_n.rhsNonContracting by decide)]
  rfl

/-- The block's matrix product from the zero accumulator, at lane `q`: the sum over the block's 1024 rows. -/
theorem matmul_zero_apply (x : FVec Ideal S1x1024 .bf16) (w : FVec Ideal S1024x1024 .bf16) (q : Fin 1024) :
    matmul (F := Ideal) dot_S1x1024_S1024x1024_S1x1024_1_0_0_1_n_n none x w (constant (F := Ideal) S1x1024 .f32 0x00000000#32) (ix2 0 q)
      = ∑ r : Fin 1024, x (ix2 0 r) * w (ix2 r q) := by
  simp only [matmul]
  rw [Ideal.matmul_constant_zero_apply,
    ← Equiv.sum_comp (ValueIdx.contrEquiv1 dot_S1x1024_S1024x1024_S1x1024_1_0_0_1_n_n 1024 rfl rfl).symm]
  refine Finset.sum_congr rfl fun k _ => ?_
  have hk := ValueIdx.contrEquiv1_symm_val dot_S1x1024_S1024x1024_S1x1024_1_0_0_1_n_n 1024 rfl rfl k
  have el : dot_S1x1024_S1024x1024_S1x1024_1_0_0_1_n_n.lhsIdx (ix2 0 q)
      ((ValueIdx.contrEquiv1 dot_S1x1024_S1024x1024_S1x1024_1_0_0_1_n_n 1024 rfl rfl).symm k) = ix2 0 k :=
    funext fun a => Fin.ext (by
      match a with
      | ⟨0, _⟩ => exact lhs_row _ _
      | ⟨1, _⟩ => exact (dot_S1x1024_S1024x1024_S1x1024_1_0_0_1_n_n.lhsIdx_val_of_single rfl _ _).trans hk)
  have er : dot_S1x1024_S1024x1024_S1x1024_1_0_0_1_n_n.rhsIdx (ix2 0 q)
      ((ValueIdx.contrEquiv1 dot_S1x1024_S1024x1024_S1x1024_1_0_0_1_n_n 1024 rfl rfl).symm k) = ix2 k q :=
    funext fun a => Fin.ext (by
      match a with
      | ⟨0, _⟩ => exact (dot_S1x1024_S1024x1024_S1x1024_1_0_0_1_n_n.rhsIdx_val_of_single rfl _ _).trans hk
      | ⟨1, _⟩ => exact rhs_col _ _)
  rw [el, er]

/-- Lane `q` of `total + inputs · weights`. -/
theorem addBlock_apply (x : Vec Ideal S1x1024 .bf16) (a : Vec Ideal S1x1024 .f32) (w : Vec Ideal S1024x1024 .f32) (q : Fin 1024) :
    k0_pay8 (F := Ideal) x a w (ix2 0 q) = a (ix2 0 q) + ∑ r : Fin 1024, x (ix2 0 r) * w (ix2 r q) := by
  unfold k0_pay8 k0_pay7
  simp only [shapeCast_self]
  rw [addf_apply, matmul_zero_apply]
  rfl

/-- The zero row reads `0` at every lane. -/
theorem zeroRow_apply (j : S1x1024.Idx) : k0_pay3 (F := Ideal) j = 0 := by
  unfold k0_pay3
  simp only [shapeCast_self]
  show Ideal.ofBits .f32 0x00000000#32 = 0
  exact Ideal.ofBits_zero_f32

/-- Lane `j` of the output block: the cell's nonlinearity of lane `j` of its operands. -/
theorem outBlock_apply (af bf ai bi ag bg ao bo cs : Vec Ideal S1x1024 .f32) (j : S1x1024.Idx) :
    k0_pay2 (F := Ideal) af bf ai bi ag bg ao bo cs j
      = Ideal.logistic (ao j + bo j)
          * Ideal.tanh (cs j * Ideal.logistic (af j + bf j) + Ideal.tanh (ag j + bg j) * Ideal.logistic (ai j + bi j)) := by
  unfold k0_pay2
  simp only [shapeCast_self]
  rfl

end Cert.KernelIdeal.PayloadAt

end
-- ==== Proof.LibSumBlocks.lean ====
/-
  A sum over `n * b` consecutive indices is the sum, over `n` blocks, of the sums over the `b` indices of each
  block: index `e` is `b * j + k` for exactly one block `j < n` and one offset `k < b`. This holds in every additive
  commutative monoid — only commutativity and associativity of the addition are used — so in particular on the
  extended reals, where no finiteness is needed.
-/
import Mathlib.Algebra.BigOperators.Fin
import Mathlib.Logic.Equiv.Fin.Basic

namespace SumBlocks

open Finset

/-- `∑_{e < n·b} f e = ∑_{j < n} ∑_{k < b} f (b·j + k)`: the indices below `n · b` are the pairs (block, offset). -/
theorem sum_mul_eq_sum_blocks {M : Type*} [AddCommMonoid M] (n b : ℕ) (f : ℕ → M) :
    ∑ e : Fin (n * b), f e.val = ∑ j : Fin n, ∑ k : Fin b, f (b * j.val + k.val) := by
  rw [← (finProdFinEquiv (m := n) (n := b)).sum_comp (fun e : Fin (n * b) => f e.val), Fintype.sum_prod_type]
  refine Finset.sum_congr rfl fun j _ => Finset.sum_congr rfl fun k _ => ?_
  exact congrArg f (Nat.add_comm _ _)

/-- Three blocks, with the left-nested grouping in which a running total takes them up one after the other. -/
theorem sum_three_blocks {M : Type*} [AddCommMonoid M] (b : ℕ) (f : ℕ → M) :
    ∑ e : Fin (3 * b), f e.val
      = ((∑ k : Fin b, f (b * 0 + k.val)) + ∑ k : Fin b, f (b * 1 + k.val)) + ∑ k : Fin b, f (b * 2 + k.val) := by
  rw [sum_mul_eq_sum_blocks 3 b f, Fin.sum_univ_three]
  rfl

end SumBlocks
-- ==== Proof.CellSpec.lean ====
/-
  The four-gate recurrent cell as ONE function of the argument arrays, on the extended reals.

  With `u` the row of 8192 inputs (the previous output followed by the new input), a gate's pre-activation at lane
  `j` is `∑ₑ u[e] · W[e, j] + b[j]`, and the new output at lane `j` is

      σ(o_j) · tanh( c[j] · σ(f_j) + tanh(g_j) · σ(i_j) )

  with `f, i, g, o` the forget, input, candidate and output pre-activations and `σ(x) = 1 / (1 + e⁻ˣ)`.

  The contraction over the 8192 inputs is also a sum of 8 block sums of 1024 consecutive inputs each: a regrouping of
  a finite sum, which holds on the extended reals with no finiteness. The blocks are numbered as a two-axis grid walks
  them: point `n` of 32 works on lane block `n / 8` and on input block `n % 8`, and `blockTerm` is what that point
  contributes to lane `q` of its lane block.
-/
import Idealize.ShloMosaic.PureOps.Ideal
import Idealize.ShloMosaic.Lib.ValueIdx
import proofs.«129651_j66554813218862_2_alg».proof.Proof.LibSumBlocks

noncomputable section

namespace CellSpec

open Idealize.ShloMosaic Idealize.ShloMosaic.ValueIdx

/-- The row of inputs, a weight matrix, a bias, the carried state. -/
abbrev Row := (⟨2, ![1, 8192]⟩ : Shape).Idx → EReal
abbrev Mat := (⟨2, ![8192, 4096]⟩ : Shape).Idx → EReal
abbrev Bias := (⟨1, ![4096]⟩ : Shape).Idx → EReal
abbrev Lanes := (⟨2, ![1, 4096]⟩ : Shape).Idx → EReal

/-- Entry `e` of the row, as a function of the natural number `e` (zero past the end; only `e < 8192` is ever read). -/
def rowAt (u : Row) (e : ℕ) : EReal := if h : e < 8192 then u (ix2 0 ⟨e, h⟩) else 0

/-- Entry `(e, j)` of a matrix, likewise. -/
def matAt (W : Mat) (e j : ℕ) : EReal := if h : e < 8192 ∧ j < 4096 then W (ix2 ⟨e, h.1⟩ ⟨j, h.2⟩) else 0

/-- Lane `j` of a row of 4096, likewise. -/
def lanesAt (c : Lanes) (j : ℕ) : EReal := if h : j < 4096 then c (ix2 0 ⟨j, h⟩) else 0

/-- Entry `j` of a bias, likewise. -/
def biasAt (b : Bias) (j : ℕ) : EReal := if h : j < 4096 then b (ix1 ⟨j, h⟩) else 0

/-- The contraction `∑ₑ u[e] · W[e, j]` over all 8192 inputs. -/
def gateSum (u : Row) (W : Mat) (j : Fin 4096) : EReal := ∑ e : Fin 8192, u (ix2 0 e) * W (ix2 e j)

/-- A gate's pre-activation at lane `j`. -/
def gate (u : Row) (W : Mat) (b : Bias) (j : Fin 4096) : EReal := gateSum u W j + b (ix1 j)

/-- The cell's nonlinearity, from the four pre-activations and the carried state's entry. -/
def nonlin (f i g o cs : EReal) : EReal :=
  Ideal.logistic o * Ideal.tanh (cs * Ideal.logistic f + Ideal.tanh g * Ideal.logistic i)

/-- The cell's output at lane `j`. -/
def cellAt (u : Row) (c : Lanes) (Wf : Mat) (bf : Bias) (Wi : Mat) (bi : Bias) (Wc : Mat) (bc : Bias) (Wo : Mat) (bo : Bias)
    (j : Fin 4096) : EReal :=
  nonlin (gate u Wf bf j) (gate u Wi bi j) (gate u Wc bc j) (gate u Wo bo j) (c (ix2 0 j))

/-- The cell's output row. -/
def cell (u : Row) (c : Lanes) (Wf : Mat) (bf : Bias) (Wi : Mat) (bi : Bias) (Wc : Mat) (bc : Bias) (Wo : Mat) (bo : Bias) :
    Lanes := fun i => cellAt u c Wf bf Wi bi Wc bc Wo bo (i 1)

theorem gateSum_eq_nat (u : Row) (W : Mat) (j : Fin 4096) :
    gateSum u W j = ∑ e : Fin 8192, rowAt u e.val * matAt W e.val j.val := by
  unfold gateSum
  refine Finset.sum_congr rfl fun e _ => ?_
  unfold rowAt matAt
  rw [dif_pos e.isLt, dif_pos ⟨e.isLt, j.isLt⟩]

/-- The contraction as 8 block sums of 1024 terms. -/
theorem gateSum_eq_blocks (u : Row) (W : Mat) (j : Fin 4096) :
    gateSum u W j = ∑ k : Fin 8, ∑ r : Fin 1024, rowAt u (1024 * k.val + r.val) * matAt W (1024 * k.val + r.val) j.val := by
  rw [gateSum_eq_nat]
  exact SumBlocks.sum_mul_eq_sum_blocks 8 1024 (fun e => rowAt u e * matAt W e j.val)

/-- What point `n` of the 4 × 8 grid contributes to lane `q` of its lane block: the products of the 1024 inputs of
    input block `n % 8` with column `1024 · (n / 8) + q` of the weights. -/
def blockTerm (u : Row) (W : Mat) (q : ℕ) (n : ℕ) : EReal :=
  ∑ r : Fin 1024, rowAt u (1024 * (n % 8) + r.val) * matAt W (1024 * (n % 8) + r.val) (1024 * (n / 8) + q)

/-- The contraction at lane `1024 · nb + q` is the sum of the contributions of the 8 points of lane block `nb`. -/
theorem gateSum_eq_points (u : Row) (W : Mat) (nb : ℕ) (q : Fin 1024) (h : 1024 * nb + q.val < 4096) :
    gateSum u W ⟨1024 * nb + q.val, h⟩ = ∑ i : Fin 8, blockTerm u W q.val (8 * nb + i.val) := by
  rw [gateSum_eq_blocks]
  refine Finset.sum_congr rfl fun i _ => ?_
  unfold blockTerm
  have h1 : (8 * nb + i.val) % 8 = i.val := by have := i.isLt; omega
  have h2 : (8 * nb + i.val) / 8 = nb := by have := i.isLt; omega
  rw [h1, h2]

end CellSpec

end
-- ==== Proof.BlockAt.lean ====
/-
  The blocks the grid's points work on, read entry by entry off the argument arrays.

  Point `t` of the 4 × 8 grid has lane block `t / 8` and input block `t % 8`. Its block of the input row holds the
  row's entries `1024 · (t % 8) + r`; its block of a weight matrix the entries `(1024 · (t % 8) + r, 1024 · (t / 8) + q)`;
  its blocks of the carried state and of the four biases the entries `1024 · (t / 8) + q`. The biases reach the call
  reshaped from `[4096]` to `[1, 4096]`, which moves no entry.
-/
import proofs.«129651_j66554813218862_2_alg».proof.Proof.Gen.KernelIdeal.Frame.Runs
import proofs.«129651_j66554813218862_2_alg».proof.Proof.CellSpec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.BlockAt

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- Where each window's block sits at point `t`, decided over the grid's 32 points: the input row's block moves with
    `t % 8`, the weight blocks with `(t % 8, t / 8)`, the state's, the biases' and the output's with `t / 8`. -/
theorem where_row : ∀ t : Fin cfg0.N, win0_0.index t (0 : Fin 2) = 0 ∧ win0_0.index t (1 : Fin 2) = t.val % 8 :=
  (by decide +kernel : ∀ t : Fin grid0.N, _)
theorem where_state : ∀ t : Fin cfg0.N, win0_1.index t (0 : Fin 2) = 0 ∧ win0_1.index t (1 : Fin 2) = t.val / 8 :=
  (by decide +kernel : ∀ t : Fin grid0.N, _)
theorem where_w2 : ∀ t : Fin cfg0.N, win0_2.index t (0 : Fin 2) = t.val % 8 ∧ win0_2.index t (1 : Fin 2) = t.val / 8 :=
  (by decide +kernel : ∀ t : Fin grid0.N, _)
theorem where_w3 : ∀ t : Fin cfg0.N, win0_3.index t (0 : Fin 2) = t.val % 8 ∧ win0_3.index t (1 : Fin 2) = t.val / 8 :=
  (by decide +kernel : ∀ t : Fin grid0.N, _)
theorem where_w4 : ∀ t : Fin cfg0.N, win0_4.index t (0 : Fin 2) = t.val % 8 ∧ win0_4.index t (1 : Fin 2) = t.val / 8 :=
  (by decide +kernel : ∀ t : Fin grid0.N, _)
theorem where_w5 : ∀ t : Fin cfg0.N, win0_5.index t (0 : Fin 2) = t.val % 8 ∧ win0_5.index t (1 : Fin 2) = t.val / 8 :=
  (by decide +kernel : ∀ t : Fin grid0.N, _)
theorem where_b6 : ∀ t : Fin cfg0.N, win0_6.index t (0 : Fin 2) = 0 ∧ win0_6.index t (1 : Fin 2) = t.val / 8 :=
  (by decide +kernel : ∀ t : Fin grid0.N, _)
theorem where_b7 : ∀ t : Fin cfg0.N, win0_7.index t (0 : Fin 2) = 0 ∧ win0_7.index t (1 : Fin 2) = t.val / 8 :=
  (by decide +kernel : ∀ t : Fin grid0.N, _)
theorem where_b8 : ∀ t : Fin cfg0.N, win0_8.index t (0 : Fin 2) = 0 ∧ win0_8.index t (1 : Fin 2) = t.val / 8 :=
  (by decide +kernel : ∀ t : Fin grid0.N, _)
theorem where_b9 : ∀ t : Fin cfg0.N, win0_9.index t (0 : Fin 2) = 0 ∧ win0_9.index t (1 : Fin 2) = t.val / 8 :=
  (by decide +kernel : ∀ t : Fin grid0.N, _)
theorem where_b10 : ∀ t : Fin cfg0.N, win0_10.index t (0 : Fin 2) = 0 ∧ win0_10.index t (1 : Fin 2) = t.val / 8 :=
  (by decide +kernel : ∀ t : Fin grid0.N, _)

/-- The concatenated row as the call finds it, as a row of extended reals. -/
abbrev rowOf (c : Dev nD) : CellSpec.Row := V m c main_v1

/-- Entry `r` of point `t`'s block of the input row. -/
theorem row_block (c : Dev nD) (t : Fin cfg0.N) (r : Fin 1024) :
    (iblk m c 0 t : Vec Ideal S1x1024 .bf16) (ix2 0 r) = CellSpec.rowAt (rowOf m c) (1024 * (t.val % 8) + r.val) := by
  have hN : t.val < 32 := lt_of_lt_of_eq t.isLt (show cfg0.N = 32 from N_0)
  have hr := r.isLt
  obtain ⟨e0, e1⟩ := where_row t
  unfold CellSpec.rowAt
  rw [dif_pos (by omega)]
  unfold iblk
  rw [View.read_apply]
  show V m c main_v1 (((cfg0.win 0).blk t).view.emb (ix2 0 r)) = V m c main_v1 _
  refine congrArg (V m c main_v1) (funext fun a => Fin.ext ?_)
  match a with
  | ⟨0, _⟩ => show win0_0.index t (0 : Fin 2) * 1 + 1 * 0 = 0; omega
  | ⟨1, _⟩ => show win0_0.index t (1 : Fin 2) * 1024 + 1 * r.val = 1024 * (t.val % 8) + r.val; omega

/-- Lane `q` of point `t`'s block of the carried state. -/
theorem state_block (c : Dev nD) (t : Fin cfg0.N) (q : Fin 1024) :
    (iblk m c 1 t : Vec Ideal S1x1024 .f32) (ix2 0 q) = CellSpec.lanesAt (m ((c : Thread nD τ).loc main_arg1)) (1024 * (t.val / 8) + q.val) := by
  have hN : t.val < 32 := lt_of_lt_of_eq t.isLt (show cfg0.N = 32 from N_0)
  have hq := q.isLt
  obtain ⟨e0, e1⟩ := where_state t
  unfold CellSpec.lanesAt
  rw [dif_pos (by omega)]
  unfold iblk
  rw [View.read_apply]
  show V m c main_arg1 (((cfg0.win 1).blk t).view.emb (ix2 0 q)) = _
  rw [V_main_arg1]
  refine congrArg (m ((c : Thread nD τ).loc main_arg1)) (funext fun a => Fin.ext ?_)
  match a with
  | ⟨0, _⟩ => show win0_1.index t (0 : Fin 2) * 1 + 1 * 0 = 0; omega
  | ⟨1, _⟩ => show win0_1.index t (1 : Fin 2) * 1024 + 1 * q.val = 1024 * (t.val / 8) + q.val; omega

/-- Entry `(r, q)` of point `t`'s block of the weights of window 2. -/
theorem weight_block2 (c : Dev nD) (t : Fin cfg0.N) (r q : Fin 1024) :
    (iblk m c 2 t : Vec Ideal S1024x1024 .f32) (ix2 r q)
      = CellSpec.matAt (m ((c : Thread nD τ).loc main_arg3)) (1024 * (t.val % 8) + r.val) (1024 * (t.val / 8) + q.val) := by
  have hN : t.val < 32 := lt_of_lt_of_eq t.isLt (show cfg0.N = 32 from N_0)
  have hr := r.isLt
  have hq := q.isLt
  obtain ⟨e0, e1⟩ := where_w2 t
  unfold CellSpec.matAt
  rw [dif_pos (by omega)]
  unfold iblk
  rw [View.read_apply]
  show V m c main_arg3 (((cfg0.win 2).blk t).view.emb (ix2 r q)) = _
  rw [V_main_arg3]
  refine congrArg (m ((c : Thread nD τ).loc main_arg3)) (funext fun a => Fin.ext ?_)
  match a with
  | ⟨0, _⟩ => show win0_2.index t (0 : Fin 2) * 1024 + 1 * r.val = 1024 * (t.val % 8) + r.val; omega
  | ⟨1, _⟩ => show win0_2.index t (1 : Fin 2) * 1024 + 1 * q.val = 1024 * (t.val / 8) + q.val; omega

/-- Entry `(r, q)` of point `t`'s block of the weights of window 3. -/
theorem weight_block3 (c : Dev nD) (t : Fin cfg0.N) (r q : Fin 1024) :
    (iblk m c 3 t : Vec Ideal S1024x1024 .f32) (ix2 r q)
      = CellSpec.matAt (m ((c : Thread nD τ).loc main_arg5)) (1024 * (t.val % 8) + r.val) (1024 * (t.val / 8) + q.val) := by
  have hN : t.val < 32 := lt_of_lt_of_eq t.isLt (show cfg0.N = 32 from N_0)
  have hr := r.isLt
  have hq := q.isLt
  obtain ⟨e0, e1⟩ := where_w3 t
  unfold CellSpec.matAt
  rw [dif_pos (by omega)]
  unfold iblk
  rw [View.read_apply]
  show V m c main_arg5 (((cfg0.win 3).blk t).view.emb (ix2 r q)) = _
  rw [V_main_arg5]
  refine congrArg (m ((c : Thread nD τ).loc main_arg5)) (funext fun a => Fin.ext ?_)
  match a with
  | ⟨0, _⟩ => show win0_3.index t (0 : Fin 2) * 1024 + 1 * r.val = 1024 * (t.val % 8) + r.val; omega
  | ⟨1, _⟩ => show win0_3.index t (1 : Fin 2) * 1024 + 1 * q.val = 1024 * (t.val / 8) + q.val; omega

/-- Entry `(r, q)` of point `t`'s block of the weights of window 4. -/
theorem weight_block4 (c : Dev nD) (t : Fin cfg0.N) (r q : Fin 1024) :
    (iblk m c 4 t : Vec Ideal S1024x1024 .f32) (ix2 r q)
      = CellSpec.matAt (m ((c : Thread nD τ).loc main_arg7)) (1024 * (t.val % 8) + r.val) (1024 * (t.val / 8) + q.val) := by
  have hN : t.val < 32 := lt_of_lt_of_eq t.isLt (show cfg0.N = 32 from N_0)
  have hr := r.isLt
  have hq := q.isLt
  obtain ⟨e0, e1⟩ := where_w4 t
  unfold CellSpec.matAt
  rw [dif_pos (by omega)]
  unfold iblk
  rw [View.read_apply]
  show V m c main_arg7 (((cfg0.win 4).blk t).view.emb (ix2 r q)) = _
  rw [V_main_arg7]
  refine congrArg (m ((c : Thread nD τ).loc main_arg7)) (funext fun a => Fin.ext ?_)
  match a with
  | ⟨0, _⟩ => show win0_4.index t (0 : Fin 2) * 1024 + 1 * r.val = 1024 * (t.val % 8) + r.val; omega
  | ⟨1, _⟩ => show win0_4.index t (1 : Fin 2) * 1024 + 1 * q.val = 1024 * (t.val / 8) + q.val; omega

/-- Entry `(r, q)` of point `t`'s block of the weights of window 5. -/
theorem weight_block5 (c : Dev nD) (t : Fin cfg0.N) (r q : Fin 1024) :
    (iblk m c 5 t : Vec Ideal S1024x1024 .f32) (ix2 r q)
      = CellSpec.matAt (m ((c : Thread nD τ).loc main_arg9)) (1024 * (t.val % 8) + r.val) (1024 * (t.val / 8) + q.val) := by
  have hN : t.val < 32 := lt_of_lt_of_eq t.isLt (show cfg0.N = 32 from N_0)
  have hr := r.isLt
  have hq := q.isLt
  obtain ⟨e0, e1⟩ := where_w5 t
  unfold CellSpec.matAt
  rw [dif_pos (by omega)]
  unfold iblk
  rw [View.read_apply]
  show V m c main_arg9 (((cfg0.win 5).blk t).view.emb (ix2 r q)) = _
  rw [V_main_arg9]
  refine congrArg (m ((c : Thread nD τ).loc main_arg9)) (funext fun a => Fin.ext ?_)
  match a with
  | ⟨0, _⟩ => show win0_5.index t (0 : Fin 2) * 1024 + 1 * r.val = 1024 * (t.val % 8) + r.val; omega
  | ⟨1, _⟩ => show win0_5.index t (1 : Fin 2) * 1024 + 1 * q.val = 1024 * (t.val / 8) + q.val; omega

/-- The bias of window 6 as the call finds it: the argument reshaped to one row. -/
theorem bias_array6 (c : Dev nD) :
    (V m c main_v2 : S1x4096.Idx → EReal) = shapeCast S1x4096 (m ((c : Thread nD τ).loc main_arg4)) shapeCasts_S4096_S1x4096 := by
  dsimp only [Gen.V, Gen.hostOps0]; after_results; rfl

/-- Lane `q` of point `t`'s block of that bias. -/
theorem bias_block6 (c : Dev nD) (t : Fin cfg0.N) (q : Fin 1024) :
    (iblk m c 6 t : Vec Ideal S1x1024 .f32) (ix2 0 q) = CellSpec.biasAt (m ((c : Thread nD τ).loc main_arg4)) (1024 * (t.val / 8) + q.val) := by
  have hN : t.val < 32 := lt_of_lt_of_eq t.isLt (show cfg0.N = 32 from N_0)
  have hq := q.isLt
  obtain ⟨e0, e1⟩ := where_b6 t
  unfold CellSpec.biasAt
  rw [dif_pos (by omega)]
  unfold iblk
  rw [View.read_apply]
  show (V m c main_v2 : S1x4096.Idx → EReal) (((cfg0.win 6).blk t).view.emb (ix2 0 q)) = _
  rw [bias_array6]
  have hidx : ((cfg0.win 6).blk t).view.emb (ix2 0 q) = ix2 (0 : Fin 1) (⟨1024 * (t.val / 8) + q.val, by omega⟩ : Fin 4096) :=
    funext fun a => Fin.ext (by
      match a with
      | ⟨0, _⟩ => show win0_6.index t (0 : Fin 2) * 1 + 1 * 0 = 0; omega
      | ⟨1, _⟩ => show win0_6.index t (1 : Fin 2) * 1024 + 1 * q.val = 1024 * (t.val / 8) + q.val; omega)
  rw [hidx]
  exact shapeCast_a_1a_apply _ _ _ _

/-- The bias of window 7 as the call finds it: the argument reshaped to one row. -/
theorem bias_array7 (c : Dev nD) :
    (V m c main_v3 : S1x4096.Idx → EReal) = shapeCast S1x4096 (m ((c : Thread nD τ).loc main_arg6)) shapeCasts_S4096_S1x4096 := by
  dsimp only [Gen.V, Gen.hostOps0]; after_results; rfl

/-- Lane `q` of point `t`'s block of that bias. -/
theorem bias_block7 (c : Dev nD) (t : Fin cfg0.N) (q : Fin 1024) :
    (iblk m c 7 t : Vec Ideal S1x1024 .f32) (ix2 0 q) = CellSpec.biasAt (m ((c : Thread nD τ).loc main_arg6)) (1024 * (t.val / 8) + q.val) := by
  have hN : t.val < 32 := lt_of_lt_of_eq t.isLt (show cfg0.N = 32 from N_0)
  have hq := q.isLt
  obtain ⟨e0, e1⟩ := where_b7 t
  unfold CellSpec.biasAt
  rw [dif_pos (by omega)]
  unfold iblk
  rw [View.read_apply]
  show (V m c main_v3 : S1x4096.Idx → EReal) (((cfg0.win 7).blk t).view.emb (ix2 0 q)) = _
  rw [bias_array7]
  have hidx : ((cfg0.win 7).blk t).view.emb (ix2 0 q) = ix2 (0 : Fin 1) (⟨1024 * (t.val / 8) + q.val, by omega⟩ : Fin 4096) :=
    funext fun a => Fin.ext (by
      match a with
      | ⟨0, _⟩ => show win0_7.index t (0 : Fin 2) * 1 + 1 * 0 = 0; omega
      | ⟨1, _⟩ => show win0_7.index t (1 : Fin 2) * 1024 + 1 * q.val = 1024 * (t.val / 8) + q.val; omega)
  rw [hidx]
  exact shapeCast_a_1a_apply _ _ _ _

/-- The bias of window 8 as the call finds it: the argument reshaped to one row. -/
theorem bias_array8 (c : Dev nD) :
    (V m c main_v4 : S1x4096.Idx → EReal) = shapeCast S1x4096 (m ((c : Thread nD τ).loc main_arg8)) shapeCasts_S4096_S1x4096 := by
  dsimp only [Gen.V, Gen.hostOps0]; after_results; rfl

/-- Lane `q` of point `t`'s block of that bias. -/
theorem bias_block8 (c : Dev nD) (t : Fin cfg0.N) (q : Fin 1024) :
    (iblk m c 8 t : Vec Ideal S1x1024 .f32) (ix2 0 q) = CellSpec.biasAt (m ((c : Thread nD τ).loc main_arg8)) (1024 * (t.val / 8) + q.val) := by
  have hN : t.val < 32 := lt_of_lt_of_eq t.isLt (show cfg0.N = 32 from N_0)
  have hq := q.isLt
  obtain ⟨e0, e1⟩ := where_b8 t
  unfold CellSpec.biasAt
  rw [dif_pos (by omega)]
  unfold iblk
  rw [View.read_apply]
  show (V m c main_v4 : S1x4096.Idx → EReal) (((cfg0.win 8).blk t).view.emb (ix2 0 q)) = _
  rw [bias_array8]
  have hidx : ((cfg0.win 8).blk t).view.emb (ix2 0 q) = ix2 (0 : Fin 1) (⟨1024 * (t.val / 8) + q.val, by omega⟩ : Fin 4096) :=
    funext fun a => Fin.ext (by
      match a with
      | ⟨0, _⟩ => show win0_8.index t (0 : Fin 2) * 1 + 1 * 0 = 0; omega
      | ⟨1, _⟩ => show win0_8.index t (1 : Fin 2) * 1024 + 1 * q.val = 1024 * (t.val / 8) + q.val; omega)
  rw [hidx]
  exact shapeCast_a_1a_apply _ _ _ _

/-- The bias of window 9 as the call finds it: the argument reshaped to one row. -/
theorem bias_array9 (c : Dev nD) :
    (V m c main_v5 : S1x4096.Idx → EReal) = shapeCast S1x4096 (m ((c : Thread nD τ).loc main_arg10)) shapeCasts_S4096_S1x4096 := by
  dsimp only [Gen.V, Gen.hostOps0]; after_results; rfl

/-- Lane `q` of point `t`'s block of that bias. -/
theorem bias_block9 (c : Dev nD) (t : Fin cfg0.N) (q : Fin 1024) :
    (iblk m c 9 t : Vec Ideal S1x1024 .f32) (ix2 0 q) = CellSpec.biasAt (m ((c : Thread nD τ).loc main_arg10)) (1024 * (t.val / 8) + q.val) := by
  have hN : t.val < 32 := lt_of_lt_of_eq t.isLt (show cfg0.N = 32 from N_0)
  have hq := q.isLt
  obtain ⟨e0, e1⟩ := where_b9 t
  unfold CellSpec.biasAt
  rw [dif_pos (by omega)]
  unfold iblk
  rw [View.read_apply]
  show (V m c main_v5 : S1x4096.Idx → EReal) (((cfg0.win 9).blk t).view.emb (ix2 0 q)) = _
  rw [bias_array9]
  have hidx : ((cfg0.win 9).blk t).view.emb (ix2 0 q) = ix2 (0 : Fin 1) (⟨1024 * (t.val / 8) + q.val, by omega⟩ : Fin 4096) :=
    funext fun a => Fin.ext (by
      match a with
      | ⟨0, _⟩ => show win0_9.index t (0 : Fin 2) * 1 + 1 * 0 = 0; omega
      | ⟨1, _⟩ => show win0_9.index t (1 : Fin 2) * 1024 + 1 * q.val = 1024 * (t.val / 8) + q.val; omega)
  rw [hidx]
  exact shapeCast_a_1a_apply _ _ _ _

end Cert.KernelIdeal.BlockAt

end
-- ==== Proof.LibAccumBlocks.lean ====
/-
  A running total that is reset at every p-th step and otherwise takes up one more term: after the step numbered
  `p * j + k` (with `k < p`) it holds the sum of the terms of the steps `p * j, …, p * j + k` — the terms of its own
  period only, whatever was there before the reset. Only commutativity and associativity of the addition are used, so
  the statement holds in every additive commutative monoid; on the extended reals no finiteness is needed.
-/
import Mathlib.Algebra.BigOperators.Fin
import Mathlib.Algebra.BigOperators.Intervals

namespace AccumBlocks

open Finset

/-- `S` is the total after each step (defined for the steps below `N`), `B` the term a step contributes. If a step whose
    number is a multiple of `p` leaves exactly its own term (`hreset`) and every other step adds its term to what the step
    before left (`hstep`), then after step `p * j + k`, `k < p`, the total is `∑_{i ≤ k} B (p * j + i)`. -/
theorem total_eq_sum_range {M : Type*} [AddCommMonoid M] (p N : ℕ) (S : (n : ℕ) → n < N → M) (B : ℕ → M)
    (hreset : ∀ (n : ℕ) (h : n < N), n % p = 0 → S n h = B n)
    (hstep : ∀ (n : ℕ) (h : n + 1 < N), (n + 1) % p ≠ 0 → S (n + 1) h = S n (Nat.lt_of_succ_lt h) + B (n + 1))
    (j : ℕ) : ∀ (k : ℕ), k < p → ∀ (n : ℕ) (h : n < N), n = p * j + k →
      S n h = ∑ i ∈ Finset.range (k + 1), B (p * j + i)
  | 0, _, n, h, hn => by
    subst hn
    rw [hreset _ h (by rw [Nat.add_zero]; exact Nat.mul_mod_right p j), Finset.sum_range_one]
  | k + 1, hk, n, h, hn => by
    subst hn
    have hne : (p * j + k + 1) % p ≠ 0 := by
      rw [Nat.add_assoc, Nat.mul_add_mod, Nat.mod_eq_of_lt hk]
      exact Nat.succ_ne_zero k
    have e := hstep (p * j + k) h hne
    rw [show S (p * j + (k + 1)) h = S (p * j + k + 1) h from rfl, e,
      total_eq_sum_range p N S B hreset hstep j k (Nat.lt_of_succ_lt hk) (p * j + k) _ rfl,
      Finset.sum_range_succ (fun i => B (p * j + i)) (k + 1)]
    rfl

/-- The same with the sum written over `Fin (k + 1)`. -/
theorem total_eq_sum_fin {M : Type*} [AddCommMonoid M] (p N : ℕ) (S : (n : ℕ) → n < N → M) (B : ℕ → M)
    (hreset : ∀ (n : ℕ) (h : n < N), n % p = 0 → S n h = B n)
    (hstep : ∀ (n : ℕ) (h : n + 1 < N), (n + 1) % p ≠ 0 → S (n + 1) h = S n (Nat.lt_of_succ_lt h) + B (n + 1))
    (j k : ℕ) (hk : k < p) (n : ℕ) (h : n < N) (hn : n = p * j + k) :
    S n h = ∑ i : Fin (k + 1), B (p * j + i.val) := by
  rw [total_eq_sum_range p N S B hreset hstep j k hk n h hn, Finset.sum_range]

end AccumBlocks
-- ==== Proof.CellValue.lean ====
/-
  What the call leaves in the result array: the cell of the argument arrays.

  The four running totals (forget, input, candidate, output) are carried from point to point of the 4 × 8 grid. By
  induction on the point, the total of a gate after point `t` holds at lane `q` the sum of the contributions of the
  points `8 · (t / 8), …, t` of its lane block (the reset at the block's first point discards what came before), so
  after the block's last point it holds the whole contraction `∑ₑ u[e] · W[e, 1024 · (t / 8) + q]` over the 8192 inputs.
  That last point writes the output block: the cell's nonlinearity of the four completed totals plus the biases, and of
  the carried state. The four last points' blocks tile the result row.
-/
import proofs.«129651_j66554813218862_2_alg».proof.Proof.Gen.KernelIdeal.Value
import proofs.«129651_j66554813218862_2_alg».proof.Proof.Pieces
import proofs.«129651_j66554813218862_2_alg».proof.Proof.PayloadAt
import proofs.«129651_j66554813218862_2_alg».proof.Proof.BlockAt
import proofs.«129651_j66554813218862_2_alg».proof.Proof.CellSpec
import proofs.«129651_j66554813218862_2_alg».proof.Proof.LibAccumBlocks

noncomputable section

namespace Cert.KernelIdeal.CellValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Points Cert.KernelIdeal.PayloadAt Cert.KernelIdeal.BlockAt

variable (m : (ℓ : Loc nD τ sig) → Buf (Elt Ideal) ℓ) (ρ : Dev nD → PrngReg)

/-! ## One point's effect on each total, as vectors -/

/-- The forget total after a first point. -/
theorem forget_first (c : Dev nD) (t : Fin cfg0.N) (h0 : t.val % 8 = 0) (h1 : ¬t.val % 8 = 7) :
    (outsAt0 m c t.val t.isLt).2.1 = addBlock (iblk m c 0 t) zeroRow (iblk m c 2 t) := by
  rw [outsAt0_A m c t h0 h1]
  dsimp only
  exact first_total0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)

/-- The forget total after a middle point, over what the point before left. -/
theorem forget_middle (c : Dev nD) (t : Fin cfg0.N) (h0 : ¬t.val % 8 = 0) (h1 : ¬t.val % 8 = 7) :
    (outsAt0 m c t.val t.isLt).2.1 = addBlock (iblk m c 0 t) (outsAt0 m c (t.val - 1) (Nat.lt_of_le_of_lt (Nat.sub_le _ _) t.isLt)).2.1 (iblk m c 2 t) := by
  rw [outsAt0_B m c t h0 h1]
  dsimp only
  exact middle_total0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The forget total after a last point, over what the point before left. -/
theorem forget_last (c : Dev nD) (t : Fin cfg0.N) (h0 : ¬t.val % 8 = 0) (h1 : t.val % 8 = 7) :
    (outsAt0 m c t.val t.isLt).2.1 = addBlock (iblk m c 0 t) (outsAt0 m c (t.val - 1) (Nat.lt_of_le_of_lt (Nat.sub_le _ _) t.isLt)).2.1 (iblk m c 2 t) := by
  rw [outsAt0_C m c t h0 h1]
  dsimp only
  exact last_total0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The input total after a first point. -/
theorem input_first (c : Dev nD) (t : Fin cfg0.N) (h0 : t.val % 8 = 0) (h1 : ¬t.val % 8 = 7) :
    (outsAt0 m c t.val t.isLt).2.2.1 = addBlock (iblk m c 0 t) zeroRow (iblk m c 3 t) := by
  rw [outsAt0_A m c t h0 h1]
  dsimp only
  exact first_total1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)

/-- The input total after a middle point, over what the point before left. -/
theorem input_middle (c : Dev nD) (t : Fin cfg0.N) (h0 : ¬t.val % 8 = 0) (h1 : ¬t.val % 8 = 7) :
    (outsAt0 m c t.val t.isLt).2.2.1 = addBlock (iblk m c 0 t) (outsAt0 m c (t.val - 1) (Nat.lt_of_le_of_lt (Nat.sub_le _ _) t.isLt)).2.2.1 (iblk m c 3 t) := by
  rw [outsAt0_B m c t h0 h1]
  dsimp only
  exact middle_total1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The input total after a last point, over what the point before left. -/
theorem input_last (c : Dev nD) (t : Fin cfg0.N) (h0 : ¬t.val % 8 = 0) (h1 : t.val % 8 = 7) :
    (outsAt0 m c t.val t.isLt).2.2.1 = addBlock (iblk m c 0 t) (outsAt0 m c (t.val - 1) (Nat.lt_of_le_of_lt (Nat.sub_le _ _) t.isLt)).2.2.1 (iblk m c 3 t) := by
  rw [outsAt0_C m c t h0 h1]
  dsimp only
  exact last_total1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The candidate total after a first point. -/
theorem candidate_first (c : Dev nD) (t : Fin cfg0.N) (h0 : t.val % 8 = 0) (h1 : ¬t.val % 8 = 7) :
    (outsAt0 m c t.val t.isLt).2.2.2.1 = addBlock (iblk m c 0 t) zeroRow (iblk m c 4 t) := by
  rw [outsAt0_A m c t h0 h1]
  dsimp only
  exact first_total2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)

/-- The candidate total after a middle point, over what the point before left. -/
theorem candidate_middle (c : Dev nD) (t : Fin cfg0.N) (h0 : ¬t.val % 8 = 0) (h1 : ¬t.val % 8 = 7) :
    (outsAt0 m c t.val t.isLt).2.2.2.1 = addBlock (iblk m c 0 t) (outsAt0 m c (t.val - 1) (Nat.lt_of_le_of_lt (Nat.sub_le _ _) t.isLt)).2.2.2.1 (iblk m c 4 t) := by
  rw [outsAt0_B m c t h0 h1]
  dsimp only
  exact middle_total2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The candidate total after a last point, over what the point before left. -/
theorem candidate_last (c : Dev nD) (t : Fin cfg0.N) (h0 : ¬t.val % 8 = 0) (h1 : t.val % 8 = 7) :
    (outsAt0 m c t.val t.isLt).2.2.2.1 = addBlock (iblk m c 0 t) (outsAt0 m c (t.val - 1) (Nat.lt_of_le_of_lt (Nat.sub_le _ _) t.isLt)).2.2.2.1 (iblk m c 4 t) := by
  rw [outsAt0_C m c t h0 h1]
  dsimp only
  exact last_total2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The output total after a first point. -/
theorem outgate_first (c : Dev nD) (t : Fin cfg0.N) (h0 : t.val % 8 = 0) (h1 : ¬t.val % 8 = 7) :
    (outsAt0 m c t.val t.isLt).2.2.2.2 = addBlock (iblk m c 0 t) zeroRow (iblk m c 5 t) := by
  rw [outsAt0_A m c t h0 h1]
  dsimp only
  exact first_total3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)

/-- The output total after a middle point, over what the point before left. -/
theorem outgate_middle (c : Dev nD) (t : Fin cfg0.N) (h0 : ¬t.val % 8 = 0) (h1 : ¬t.val % 8 = 7) :
    (outsAt0 m c t.val t.isLt).2.2.2.2 = addBlock (iblk m c 0 t) (outsAt0 m c (t.val - 1) (Nat.lt_of_le_of_lt (Nat.sub_le _ _) t.isLt)).2.2.2.2 (iblk m c 5 t) := by
  rw [outsAt0_B m c t h0 h1]
  dsimp only
  exact middle_total3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The output total after a last point, over what the point before left. -/
theorem outgate_last (c : Dev nD) (t : Fin cfg0.N) (h0 : ¬t.val % 8 = 0) (h1 : t.val % 8 = 7) :
    (outsAt0 m c t.val t.isLt).2.2.2.2 = addBlock (iblk m c 0 t) (outsAt0 m c (t.val - 1) (Nat.lt_of_le_of_lt (Nat.sub_le _ _) t.isLt)).2.2.2.2 (iblk m c 5 t) := by
  rw [outsAt0_C m c t h0 h1]
  dsimp only
  exact last_total3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The output block a last point writes, from the totals that point completes and the point's other blocks. -/
theorem output_last (c : Dev nD) (t : Fin cfg0.N) (h0 : ¬t.val % 8 = 0) (h1 : t.val % 8 = 7) :
    (outsAt0 m c t.val t.isLt).1
      = outBlock (addBlock (iblk m c 0 t) (outsAt0 m c (t.val - 1) (Nat.lt_of_le_of_lt (Nat.sub_le _ _) t.isLt)).2.1 (iblk m c 2 t)) (iblk m c 6 t)
          (addBlock (iblk m c 0 t) (outsAt0 m c (t.val - 1) (Nat.lt_of_le_of_lt (Nat.sub_le _ _) t.isLt)).2.2.1 (iblk m c 3 t)) (iblk m c 7 t)
          (addBlock (iblk m c 0 t) (outsAt0 m c (t.val - 1) (Nat.lt_of_le_of_lt (Nat.sub_le _ _) t.isLt)).2.2.2.1 (iblk m c 4 t)) (iblk m c 8 t)
          (addBlock (iblk m c 0 t) (outsAt0 m c (t.val - 1) (Nat.lt_of_le_of_lt (Nat.sub_le _ _) t.isLt)).2.2.2.2 (iblk m c 5 t)) (iblk m c 9 t) (iblk m c 1 t) := by
  rw [outsAt0_C m c t h0 h1]
  dsimp only
  exact last_output (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-! ## The totals at a lane, by induction on the point -/

/-- The arguments as the specification's arrays. -/
abbrev stateOf (c : Dev nD) : CellSpec.Lanes := m ((c : Thread nD τ).loc main_arg1)
abbrev forgetW (c : Dev nD) : CellSpec.Mat := m ((c : Thread nD τ).loc main_arg3)
abbrev forgetB (c : Dev nD) : CellSpec.Bias := m ((c : Thread nD τ).loc main_arg4)
abbrev inputW (c : Dev nD) : CellSpec.Mat := m ((c : Thread nD τ).loc main_arg5)
abbrev inputB (c : Dev nD) : CellSpec.Bias := m ((c : Thread nD τ).loc main_arg6)
abbrev candidateW (c : Dev nD) : CellSpec.Mat := m ((c : Thread nD τ).loc main_arg7)
abbrev candidateB (c : Dev nD) : CellSpec.Bias := m ((c : Thread nD τ).loc main_arg8)
abbrev outputW (c : Dev nD) : CellSpec.Mat := m ((c : Thread nD τ).loc main_arg9)
abbrev outputB (c : Dev nD) : CellSpec.Bias := m ((c : Thread nD τ).loc main_arg10)

/-- One block taken up, at a lane: the total's lane plus the point's contribution to it. -/
theorem addBlock_lane (c : Dev nD) (t : Fin cfg0.N) (w : Fin cfg0.W) (W : CellSpec.Mat) (a : Vec Ideal S1x1024 .f32)
    (x : Vec Ideal S1x1024 .bf16) (y : Vec Ideal S1024x1024 .f32) (q : Fin 1024)
    (hx : ∀ r : Fin 1024, x (ix2 0 r) = CellSpec.rowAt (rowOf m c) (1024 * (t.val % 8) + r.val))
    (hy : ∀ r : Fin 1024, y (ix2 r q) = CellSpec.matAt W (1024 * (t.val % 8) + r.val) (1024 * (t.val / 8) + q.val)) :
    addBlock x a y (ix2 0 q) = a (ix2 0 q) + CellSpec.blockTerm (rowOf m c) W q.val t.val := by
  rw [show addBlock x a y = k0_pay8 (F := Ideal) x a y from rfl, addBlock_apply]
  unfold CellSpec.blockTerm
  exact congrArg (a (ix2 0 q) + ·) (Finset.sum_congr rfl fun r _ => by rw [hx r, hy r])

/-- The forget total at lane `q` after a block's last point: the whole contraction at lane `1024 · (t / 8) + q`. -/
theorem forget_done (c : Dev nD) (t : Fin cfg0.N) (h7 : t.val % 8 = 7) (q : Fin 1024)
    (hlane : 1024 * (t.val / 8) + q.val < 4096) :
    (outsAt0 m c t.val t.isLt).2.1 (ix2 0 q) = CellSpec.gateSum (rowOf m c) (forgetW m c) ⟨1024 * (t.val / 8) + q.val, hlane⟩ := by
  have key := AccumBlocks.total_eq_sum_fin 8 cfg0.N (fun n h => (outsAt0 m c n h).2.1 (ix2 0 q))
    (CellSpec.blockTerm (rowOf m c) (forgetW m c) q.val)
    (fun n h hn => by
      have h1 : ¬(⟨n, h⟩ : Fin cfg0.N).val % 8 = 7 := by dsimp only; omega
      show (outsAt0 m c (⟨n, h⟩ : Fin cfg0.N).val (⟨n, h⟩ : Fin cfg0.N).isLt).2.1 (ix2 0 q) = _
      rw [forget_first m c ⟨n, h⟩ hn h1,
        addBlock_lane m c ⟨n, h⟩ 2 (forgetW m c) zeroRow (iblk m c 0 ⟨n, h⟩) (iblk m c 2 ⟨n, h⟩) q
          (fun r => row_block m c ⟨n, h⟩ r) (fun r => weight_block2 m c ⟨n, h⟩ r q),
        show (zeroRow (F := Ideal)) (ix2 0 q) = 0 from zeroRow_apply _, zero_add])
    (fun n h hn => by
      show (outsAt0 m c (⟨n + 1, h⟩ : Fin cfg0.N).val (⟨n + 1, h⟩ : Fin cfg0.N).isLt).2.1 (ix2 0 q) = _
      by_cases h1 : (⟨n + 1, h⟩ : Fin cfg0.N).val % 8 = 7
      · rw [forget_last m c ⟨n + 1, h⟩ hn h1,
          addBlock_lane m c ⟨n + 1, h⟩ 2 (forgetW m c) _ (iblk m c 0 ⟨n + 1, h⟩) (iblk m c 2 ⟨n + 1, h⟩) q
            (fun r => row_block m c ⟨n + 1, h⟩ r) (fun r => weight_block2 m c ⟨n + 1, h⟩ r q)]
        rfl
      · rw [forget_middle m c ⟨n + 1, h⟩ hn h1,
          addBlock_lane m c ⟨n + 1, h⟩ 2 (forgetW m c) _ (iblk m c 0 ⟨n + 1, h⟩) (iblk m c 2 ⟨n + 1, h⟩) q
            (fun r => row_block m c ⟨n + 1, h⟩ r) (fun r => weight_block2 m c ⟨n + 1, h⟩ r q)]
        rfl)
    (t.val / 8) 7 (by decide) t.val t.isLt (by omega)
  rw [CellSpec.gateSum_eq_points (rowOf m c) (forgetW m c) (t.val / 8) q hlane]
  exact key

/-- The input total at lane `q` after a block's last point: the whole contraction at lane `1024 · (t / 8) + q`. -/
theorem input_done (c : Dev nD) (t : Fin cfg0.N) (h7 : t.val % 8 = 7) (q : Fin 1024)
    (hlane : 1024 * (t.val / 8) + q.val < 4096) :
    (outsAt0 m c t.val t.isLt).2.2.1 (ix2 0 q) = CellSpec.gateSum (rowOf m c) (inputW m c) ⟨1024 * (t.val / 8) + q.val, hlane⟩ := by
  have key := AccumBlocks.total_eq_sum_fin 8 cfg0.N (fun n h => (outsAt0 m c n h).2.2.1 (ix2 0 q))
    (CellSpec.blockTerm (rowOf m c) (inputW m c) q.val)
    (fun n h hn => by
      have h1 : ¬(⟨n, h⟩ : Fin cfg0.N).val % 8 = 7 := by dsimp only; omega
      show (outsAt0 m c (⟨n, h⟩ : Fin cfg0.N).val (⟨n, h⟩ : Fin cfg0.N).isLt).2.2.1 (ix2 0 q) = _
      rw [input_first m c ⟨n, h⟩ hn h1,
        addBlock_lane m c ⟨n, h⟩ 3 (inputW m c) zeroRow (iblk m c 0 ⟨n, h⟩) (iblk m c 3 ⟨n, h⟩) q
          (fun r => row_block m c ⟨n, h⟩ r) (fun r => weight_block3 m c ⟨n, h⟩ r q),
        show (zeroRow (F := Ideal)) (ix2 0 q) = 0 from zeroRow_apply _, zero_add])
    (fun n h hn => by
      show (outsAt0 m c (⟨n + 1, h⟩ : Fin cfg0.N).val (⟨n + 1, h⟩ : Fin cfg0.N).isLt).2.2.1 (ix2 0 q) = _
      by_cases h1 : (⟨n + 1, h⟩ : Fin cfg0.N).val % 8 = 7
      · rw [input_last m c ⟨n + 1, h⟩ hn h1,
          addBlock_lane m c ⟨n + 1, h⟩ 3 (inputW m c) _ (iblk m c 0 ⟨n + 1, h⟩) (iblk m c 3 ⟨n + 1, h⟩) q
            (fun r => row_block m c ⟨n + 1, h⟩ r) (fun r => weight_block3 m c ⟨n + 1, h⟩ r q)]
        rfl
      · rw [input_middle m c ⟨n + 1, h⟩ hn h1,
          addBlock_lane m c ⟨n + 1, h⟩ 3 (inputW m c) _ (iblk m c 0 ⟨n + 1, h⟩) (iblk m c 3 ⟨n + 1, h⟩) q
            (fun r => row_block m c ⟨n + 1, h⟩ r) (fun r => weight_block3 m c ⟨n + 1, h⟩ r q)]
        rfl)
    (t.val / 8) 7 (by decide) t.val t.isLt (by omega)
  rw [CellSpec.gateSum_eq_points (rowOf m c) (inputW m c) (t.val / 8) q hlane]
  exact key

/-- The candidate total at lane `q` after a block's last point: the whole contraction at lane `1024 · (t / 8) + q`. -/
theorem candidate_done (c : Dev nD) (t : Fin cfg0.N) (h7 : t.val % 8 = 7) (q : Fin 1024)
    (hlane : 1024 * (t.val / 8) + q.val < 4096) :
    (outsAt0 m c t.val t.isLt).2.2.2.1 (ix2 0 q) = CellSpec.gateSum (rowOf m c) (candidateW m c) ⟨1024 * (t.val / 8) + q.val, hlane⟩ := by
  have key := AccumBlocks.total_eq_sum_fin 8 cfg0.N (fun n h => (outsAt0 m c n h).2.2.2.1 (ix2 0 q))
    (CellSpec.blockTerm (rowOf m c) (candidateW m c) q.val)
    (fun n h hn => by
      have h1 : ¬(⟨n, h⟩ : Fin cfg0.N).val % 8 = 7 := by dsimp only; omega
      show (outsAt0 m c (⟨n, h⟩ : Fin cfg0.N).val (⟨n, h⟩ : Fin cfg0.N).isLt).2.2.2.1 (ix2 0 q) = _
      rw [candidate_first m c ⟨n, h⟩ hn h1,
        addBlock_lane m c ⟨n, h⟩ 4 (candidateW m c) zeroRow (iblk m c 0 ⟨n, h⟩) (iblk m c 4 ⟨n, h⟩) q
          (fun r => row_block m c ⟨n, h⟩ r) (fun r => weight_block4 m c ⟨n, h⟩ r q),
        show (zeroRow (F := Ideal)) (ix2 0 q) = 0 from zeroRow_apply _, zero_add])
    (fun n h hn => by
      show (outsAt0 m c (⟨n + 1, h⟩ : Fin cfg0.N).val (⟨n + 1, h⟩ : Fin cfg0.N).isLt).2.2.2.1 (ix2 0 q) = _
      by_cases h1 : (⟨n + 1, h⟩ : Fin cfg0.N).val % 8 = 7
      · rw [candidate_last m c ⟨n + 1, h⟩ hn h1,
          addBlock_lane m c ⟨n + 1, h⟩ 4 (candidateW m c) _ (iblk m c 0 ⟨n + 1, h⟩) (iblk m c 4 ⟨n + 1, h⟩) q
            (fun r => row_block m c ⟨n + 1, h⟩ r) (fun r => weight_block4 m c ⟨n + 1, h⟩ r q)]
        rfl
      · rw [candidate_middle m c ⟨n + 1, h⟩ hn h1,
          addBlock_lane m c ⟨n + 1, h⟩ 4 (candidateW m c) _ (iblk m c 0 ⟨n + 1, h⟩) (iblk m c 4 ⟨n + 1, h⟩) q
            (fun r => row_block m c ⟨n + 1, h⟩ r) (fun r => weight_block4 m c ⟨n + 1, h⟩ r q)]
        rfl)
    (t.val / 8) 7 (by decide) t.val t.isLt (by omega)
  rw [CellSpec.gateSum_eq_points (rowOf m c) (candidateW m c) (t.val / 8) q hlane]
  exact key

/-- The output total at lane `q` after a block's last point: the whole contraction at lane `1024 · (t / 8) + q`. -/
theorem outgate_done (c : Dev nD) (t : Fin cfg0.N) (h7 : t.val % 8 = 7) (q : Fin 1024)
    (hlane : 1024 * (t.val / 8) + q.val < 4096) :
    (outsAt0 m c t.val t.isLt).2.2.2.2 (ix2 0 q) = CellSpec.gateSum (rowOf m c) (outputW m c) ⟨1024 * (t.val / 8) + q.val, hlane⟩ := by
  have key := AccumBlocks.total_eq_sum_fin 8 cfg0.N (fun n h => (outsAt0 m c n h).2.2.2.2 (ix2 0 q))
    (CellSpec.blockTerm (rowOf m c) (outputW m c) q.val)
    (fun n h hn => by
      have h1 : ¬(⟨n, h⟩ : Fin cfg0.N).val % 8 = 7 := by dsimp only; omega
      show (outsAt0 m c (⟨n, h⟩ : Fin cfg0.N).val (⟨n, h⟩ : Fin cfg0.N).isLt).2.2.2.2 (ix2 0 q) = _
      rw [outgate_first m c ⟨n, h⟩ hn h1,
        addBlock_lane m c ⟨n, h⟩ 5 (outputW m c) zeroRow (iblk m c 0 ⟨n, h⟩) (iblk m c 5 ⟨n, h⟩) q
          (fun r => row_block m c ⟨n, h⟩ r) (fun r => weight_block5 m c ⟨n, h⟩ r q),
        show (zeroRow (F := Ideal)) (ix2 0 q) = 0 from zeroRow_apply _, zero_add])
    (fun n h hn => by
      show (outsAt0 m c (⟨n + 1, h⟩ : Fin cfg0.N).val (⟨n + 1, h⟩ : Fin cfg0.N).isLt).2.2.2.2 (ix2 0 q) = _
      by_cases h1 : (⟨n + 1, h⟩ : Fin cfg0.N).val % 8 = 7
      · rw [outgate_last m c ⟨n + 1, h⟩ hn h1,
          addBlock_lane m c ⟨n + 1, h⟩ 5 (outputW m c) _ (iblk m c 0 ⟨n + 1, h⟩) (iblk m c 5 ⟨n + 1, h⟩) q
            (fun r => row_block m c ⟨n + 1, h⟩ r) (fun r => weight_block5 m c ⟨n + 1, h⟩ r q)]
        rfl
      · rw [outgate_middle m c ⟨n + 1, h⟩ hn h1,
          addBlock_lane m c ⟨n + 1, h⟩ 5 (outputW m c) _ (iblk m c 0 ⟨n + 1, h⟩) (iblk m c 5 ⟨n + 1, h⟩) q
            (fun r => row_block m c ⟨n + 1, h⟩ r) (fun r => weight_block5 m c ⟨n + 1, h⟩ r q)]
        rfl)
    (t.val / 8) 7 (by decide) t.val t.isLt (by omega)
  rw [CellSpec.gateSum_eq_points (rowOf m c) (outputW m c) (t.val / 8) q hlane]
  exact key

/-! ## The output block at a lane, and the result array -/

/-- The cell of the argument arrays: what the result array ends holding. -/
abbrev result (c : Dev nD) : Buf (Elt Ideal) ((c : Thread nD τ).loc main_v6) :=
  CellSpec.cell (rowOf m c) (stateOf m c) (forgetW m c) (forgetB m c) (inputW m c) (inputB m c) (candidateW m c) (candidateB m c)
    (outputW m c) (outputB m c)

/-- Lane `q` of the output block a last point writes is the cell at lane `1024 · (t / 8) + q`. -/
theorem output_lane (c : Dev nD) (t : Fin cfg0.N) (h7 : t.val % 8 = 7) (q : Fin 1024)
    (hlane : 1024 * (t.val / 8) + q.val < 4096) :
    (outsAt0 m c t.val t.isLt).1 (ix2 0 q)
      = CellSpec.cellAt (rowOf m c) (stateOf m c) (forgetW m c) (forgetB m c) (inputW m c) (inputB m c) (candidateW m c)
          (candidateB m c) (outputW m c) (outputB m c) ⟨1024 * (t.val / 8) + q.val, hlane⟩ := by
  have h0 : ¬t.val % 8 = 0 := by omega
  rw [output_last m c t h0 h7]
  rw [show ∀ (af bf ai bi ag bg ao bo cs : Vec Ideal S1x1024 .f32), outBlock af bf ai bi ag bg ao bo cs
      = k0_pay2 (F := Ideal) af bf ai bi ag bg ao bo cs from fun _ _ _ _ _ _ _ _ _ => rfl, outBlock_apply]
  rw [← forget_last m c t h0 h7, ← input_last m c t h0 h7, ← candidate_last m c t h0 h7, ← outgate_last m c t h0 h7,
    forget_done m c t h7 q hlane, input_done m c t h7 q hlane, candidate_done m c t h7 q hlane, outgate_done m c t h7 q hlane,
    bias_block6 m c t q, bias_block7 m c t q, bias_block8 m c t q, bias_block9 m c t q, state_block m c t q]
  unfold CellSpec.cellAt CellSpec.nonlin CellSpec.gate CellSpec.biasAt CellSpec.lanesAt
  simp only [dif_pos hlane]

/-- What a last point writes back is its block of the cell's row. -/
theorem flushed_lane (c : Dev nD) (t : Fin cfg0.N) (h7 : t.val % 8 = 7) (y : S1x1024.Idx) :
    (outsAt0 m c t.val t.isLt).1 y = result m c (((cfg0.win 10).blk t).view.emb y) := by
  have hN : t.val < 32 := lt_of_lt_of_eq t.isLt (show cfg0.N = 32 from N_0)
  obtain ⟨p, q, rfl⟩ : ∃ (p : Fin 1) (q : Fin 1024), y = ix2 p q := ⟨y 0, y 1, eq_ix2 y⟩
  obtain rfl : p = 0 := Subsingleton.elim _ _
  have hq := q.isLt
  have hlane : 1024 * (t.val / 8) + q.val < 4096 := by omega
  obtain ⟨e0, e1⟩ := where_b10 t
  rw [output_lane m c t h7 q hlane]
  show _ = CellSpec.cellAt _ _ _ _ _ _ _ _ _ _ ((((cfg0.win 10).blk t).view.emb (ix2 0 q)) 1)
  refine congrArg (CellSpec.cellAt _ _ _ _ _ _ _ _ _ _) (Fin.ext ?_)
  show 1024 * (t.val / 8) + q.val = win0_10.index t (1 : Fin 2) * 1024 + 1 * q.val
  omega

theorem flushed_eq (c : Dev nD) (t : Fin cfg0.N) (hf : (cfg0.win 10).flush t = true) :
    (dats m 0 c).flushed 10 t = ((cfg0.win 10).blk t).view.read (Elt Ideal) (result m c) := by
  have h7 : t.val % 8 = 7 := (flush0_10 t).mp hf
  rw [Cert.KernelIdeal.Value.flushed10]
  funext y
  exact flushed_lane m c t h7 y

/-- An index of the result row is in point `t`'s block iff each coordinate is in the block's range on its axis. -/
theorem mem_block (t : Fin cfg0.N) (i : S1x4096.Idx) :
    i ∈ ((cfg0.win 10).blk t).view.set ↔ ∀ a : Fin 2, win0_10.index t a * S1x1024.size a ≤ (i a).val ∧ (i a).val < win0_10.index t a * S1x1024.size a + S1x1024.size a := by
  show i ∈ ((View.whole main_v6).slice (win0_10.rect t)).set ↔ _
  rw [View.set_slice_whole, Rect.mem_set_unit]
  exact Iff.rfl

/-- Every lane of the result row is in the block of the last point of its lane block. -/
theorem covered (i : S1x4096.Idx) : ∃ t : Fin cfg0.N, (cfg0.win 10).flush t = true ∧ i ∈ ((cfg0.win 10).blk t).view.set := by
  have hi0 : (i 0).val < 1 := (i 0).isLt
  have hi1 : (i 1).val < 4096 := (i 1).isLt
  have hN : cfg0.N = 32 := N_0
  let t : Fin cfg0.N := ⟨8 * ((i 1).val / 1024) + 7, by omega⟩
  have htv : t.val = 8 * ((i 1).val / 1024) + 7 := rfl
  obtain ⟨e0, e1⟩ := where_b10 t
  refine ⟨t, (flush0_10 t).mpr (by omega), ?_⟩
  rw [mem_block]
  intro a
  match a with
  | ⟨0, _⟩ => show win0_10.index t (0 : Fin 2) * 1 ≤ (i 0).val ∧ (i 0).val < win0_10.index t (0 : Fin 2) * 1 + 1; omega
  | ⟨1, _⟩ => show win0_10.index t (1 : Fin 2) * 1024 ≤ (i 1).val ∧ (i 1).val < win0_10.index t (1 : Fin 2) * 1024 + 1024; omega

/-- The result array after the call is the cell of the argument arrays. -/
theorem final (c : Dev nD) : (dats m 0 c).arrAt 10 cfg0.N = result m c :=
  (dats m 0 c).arrAt_eq_of_cover 10 (result m c) (fun t hf => flushed_eq m c t hf) (covered)

/-- The run, read: the result array at the cell of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.KernelIdeal.CellValue

end
-- ==== Proof.RefCell.lean ====
/-
  The reference computes the cell.

  Read one operation at a time at lane `j`, the reference's result is the cell's nonlinearity of the four gate
  pre-activations `∑ₑ u[e] · W[e, j] + b[j]` — each a `dot_general` over the 8192 inputs plus the bias broadcast along
  the row — and of the carried state's entry. Its sigmoid is spelt `1 / (1 + exp (−x))`, which on the extended reals
  is the logistic function by definition, the literal `1.0` being the real number one.
-/
import proofs.«129651_j66554813218862_2_alg».proof.Proof.Gen.ReferenceIdeal.Read
import proofs.«129651_j66554813218862_2_alg».proof.Proof.CellSpec
import Idealize.ShloMosaic.Lib.IdealHost

noncomputable section

namespace Cert.ReferenceIdeal.RefCell

open Idealize.ShloMosaic Idealize.ShloMosaic.TcCoe Idealize.SL.Sem Idealize.ShloMosaic.ValueIdx
open Cert.ReferenceIdeal Cert.ReferenceIdeal.Read

/-- At output lane `j` and input `k` each contraction reads entry `k` of the row and entry `(k, j)` of its weights; a bias
    broadcast along the row reads its entry `j`. -/
theorem lidx_v1_eq (j : Fin 4096) (k : Fin 8192) : lidx_main_v1 (ix2 0 j) k = ix2 0 k :=
  funext fun a => Fin.ext (by match a with | ⟨0, _⟩ => rfl | ⟨1, _⟩ => rfl)
theorem ridx_v1_eq (j : Fin 4096) (k : Fin 8192) : ridx_main_v1 (ix2 0 j) k = ix2 k j :=
  funext fun a => Fin.ext (by match a with | ⟨0, _⟩ => rfl | ⟨1, _⟩ => rfl)
theorem lidx_v5_eq (j : Fin 4096) (k : Fin 8192) : lidx_main_v5 (ix2 0 j) k = ix2 0 k :=
  funext fun a => Fin.ext (by match a with | ⟨0, _⟩ => rfl | ⟨1, _⟩ => rfl)
theorem ridx_v5_eq (j : Fin 4096) (k : Fin 8192) : ridx_main_v5 (ix2 0 j) k = ix2 k j :=
  funext fun a => Fin.ext (by match a with | ⟨0, _⟩ => rfl | ⟨1, _⟩ => rfl)
theorem lidx_v14_eq (j : Fin 4096) (k : Fin 8192) : lidx_main_v14 (ix2 0 j) k = ix2 0 k :=
  funext fun a => Fin.ext (by match a with | ⟨0, _⟩ => rfl | ⟨1, _⟩ => rfl)
theorem ridx_v14_eq (j : Fin 4096) (k : Fin 8192) : ridx_main_v14 (ix2 0 j) k = ix2 k j :=
  funext fun a => Fin.ext (by match a with | ⟨0, _⟩ => rfl | ⟨1, _⟩ => rfl)
theorem lidx_v23_eq (j : Fin 4096) (k : Fin 8192) : lidx_main_v23 (ix2 0 j) k = ix2 0 k :=
  funext fun a => Fin.ext (by match a with | ⟨0, _⟩ => rfl | ⟨1, _⟩ => rfl)
theorem ridx_v23_eq (j : Fin 4096) (k : Fin 8192) : ridx_main_v23 (ix2 0 j) k = ix2 k j :=
  funext fun a => Fin.ext (by match a with | ⟨0, _⟩ => rfl | ⟨1, _⟩ => rfl)
theorem bidx_v2_eq (j : Fin 4096) : idx_main_v2 (ix2 0 j) = ix1 j :=
  funext fun a => Fin.ext (by match a with | ⟨0, _⟩ => rfl)
theorem bidx_v6_eq (j : Fin 4096) : idx_main_v6 (ix2 0 j) = ix1 j :=
  funext fun a => Fin.ext (by match a with | ⟨0, _⟩ => rfl)
theorem bidx_v15_eq (j : Fin 4096) : idx_main_v15 (ix2 0 j) = ix1 j :=
  funext fun a => Fin.ext (by match a with | ⟨0, _⟩ => rfl)
theorem bidx_v24_eq (j : Fin 4096) : idx_main_v24 (ix2 0 j) = ix1 j :=
  funext fun a => Fin.ext (by match a with | ⟨0, _⟩ => rfl)

/-- The reference's result is the cell of the concatenated row, the carried state, and the four weight matrices and biases. -/
theorem result_eq_cell (x0 x1 x2 : (⟨S1x4096, .f32⟩ : BufTy).Contents (Elt Ideal))
    (x3 : (⟨S8192x4096, .f32⟩ : BufTy).Contents (Elt Ideal)) (x4 : (⟨S4096, .f32⟩ : BufTy).Contents (Elt Ideal))
    (x5 : (⟨S8192x4096, .f32⟩ : BufTy).Contents (Elt Ideal)) (x6 : (⟨S4096, .f32⟩ : BufTy).Contents (Elt Ideal))
    (x7 : (⟨S8192x4096, .f32⟩ : BufTy).Contents (Elt Ideal)) (x8 : (⟨S4096, .f32⟩ : BufTy).Contents (Elt Ideal))
    (x9 : (⟨S8192x4096, .f32⟩ : BufTy).Contents (Elt Ideal)) (x10 : (⟨S4096, .f32⟩ : BufTy).Contents (Elt Ideal)) :
    val_main_v36 (F := Ideal) x0 x1 x2 x3 x4 x5 x6 x7 x8 x9 x10
      = CellSpec.cell (val_main_v0 (F := Ideal) x0 x2) x1 x3 x4 x5 x6 x7 x8 x9 x10 := by
  funext i
  obtain ⟨p, j, rfl⟩ : ∃ (p : Fin 1) (j : Fin 4096), i = ix2 p j := ⟨i 0, i 1, eq_ix2 i⟩
  obtain rfl : p = 0 := Subsingleton.elim _ _
  simp only [val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_cst_apply, val_main_cst_0_apply, val_main_cst_1_apply, val_main_cst_2_apply, val_main_cst_3_apply, val_main_cst_4_apply]
  simp only [lidx_v1_eq, ridx_v1_eq, lidx_v5_eq, ridx_v5_eq, lidx_v14_eq, ridx_v14_eq, lidx_v23_eq, ridx_v23_eq,
    bidx_v2_eq, bidx_v6_eq, bidx_v15_eq, bidx_v24_eq]
  simp only [Ideal.mulf_def, Ideal.addf_def, Ideal.hostDivf_def, Ideal.hostUnary_exp_def, Ideal.hostUnary_tanh_def,
    Ideal.hostNegf_def, Ideal.negf_def, Ideal.ofBits_def, Ideal.ofBits_one_f32]
  rfl

end Cert.ReferenceIdeal.RefCell

end
-- ==== Proof.lean ====
/-
  The certificate of the four-gate recurrent cell.

  Kernel: the row `u = [h, x]` of 8192 inputs is multiplied by four 8192 × 4096 weight matrices on a 4 × 8 grid — lane
  block by lane block, and within a lane block 1024 inputs at a time, each gate's products accumulated in a running
  total — and at the last point of a lane block the output block `σ(o) · tanh(c · σ(f) + tanh(g) · σ(i))` is written from
  the completed totals plus the biases. Reference: the same cell with each gate one whole contraction over the 8192 inputs
  and the sigmoid spelt `1 / (1 + exp (−x))`.

  On the extended reals the two are one function of the arguments: a change of float format is the identity, a
  contraction accumulated from zero block by block is the whole contraction (a regrouping of a finite sum, for which
  addition need only be commutative and associative — no finiteness of the inputs is used), and the spelt-out sigmoid is
  the logistic function. The kernel's side is `CellValue.run`, the reference's `RefCell.result_eq_cell`; both state the
  result as `CellSpec.cell` of the concatenated row, the carried state, the four weight matrices and the four biases.
  The three frame claims are the generated frames (the reference's: its generated run with the result dropped), and
  the idealization rewrote nothing.
-/
import proofs.«129651_j66554813218862_2_alg».proof.Defs
import proofs.«129651_j66554813218862_2_alg».proof.Proof.Gen.Kernel
import proofs.«129651_j66554813218862_2_alg».proof.Proof.Gen.Kernel.Skeleton
import proofs.«129651_j66554813218862_2_alg».proof.Proof.Gen.Kernel.Launch
import proofs.«129651_j66554813218862_2_alg».proof.Proof.Gen.Kernel.Points
import proofs.«129651_j66554813218862_2_alg».proof.Proof.Gen.Kernel.Frame
import proofs.«129651_j66554813218862_2_alg».proof.Proof.Gen.KernelIdeal
import proofs.«129651_j66554813218862_2_alg».proof.Proof.Gen.KernelIdeal.Skeleton
import proofs.«129651_j66554813218862_2_alg».proof.Proof.Gen.KernelIdeal.Launch
import proofs.«129651_j66554813218862_2_alg».proof.Proof.Gen.KernelIdeal.Points
import proofs.«129651_j66554813218862_2_alg».proof.Proof.Gen.KernelIdeal.Frame
import proofs.«129651_j66554813218862_2_alg».proof.Proof.Gen.KernelIdeal.Value
import proofs.«129651_j66554813218862_2_alg».proof.Proof.Gen.ReferenceIdeal
import proofs.«129651_j66554813218862_2_alg».proof.Proof.Gen.ReferenceIdeal.Run
import proofs.«129651_j66554813218862_2_alg».proof.Proof.Gen.ReferenceIdeal.Read
import proofs.«129651_j66554813218862_2_alg».proof.Proof.Gen.Pre_finite_inputs
import proofs.«129651_j66554813218862_2_alg».proof.Proof.CellValue
import proofs.«129651_j66554813218862_2_alg».proof.Proof.RefCell
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The row the kernel's call finds — the concatenation passed through a change of float format — is the row the
    reference contracts: on the extended reals the change of format is the identity. -/
theorem row_eq (m : (ℓ : Loc Cert.KernelIdeal.nD Cert.KernelIdeal.τ Cert.KernelIdeal.sig) → Buf (Elt Ideal) ℓ) (c : Dev Cert.KernelIdeal.nD) :
    Cert.KernelIdeal.BlockAt.rowOf m c
      = Cert.ReferenceIdeal.Read.val_main_v0 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg2)) := by
  show (Cert.KernelIdeal.Gen.V m c Cert.KernelIdeal.main_v1 : Cert.KernelIdeal.S1x8192.Idx → EReal) = _
  dsimp only [Cert.KernelIdeal.Gen.V, Cert.KernelIdeal.Gen.hostOps0]
  after_results
  rfl

/-- Both programs end with the cell of the arguments in their result arrays. -/
theorem algebraic : Cert.algebraic_KernelIdeal_ReferenceIdeal := by
  intro m ρ m' ρ' _ hagree
  refine ⟨fun c => Cert.KernelIdeal.CellValue.result m c, Cert.KernelIdeal.CellValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v36_eq, Cert.ReferenceIdeal.RefCell.result_eq_cell, a0, a1, a2, a3, a4, a5, a6, a7, a8, a9, a10]
  show CellSpec.cell _ _ _ _ _ _ _ _ _ _ = CellSpec.cell _ _ _ _ _ _ _ _ _ _
  rw [row_eq m c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
